-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x262144x4 : Shape := ⟨3, ![16, 262144, 4]⟩
abbrev S262144x4 : Shape := ⟨2, ![262144, 4]⟩
abbrev S16x262144 : Shape := ⟨2, ![16, 262144]⟩
abbrev S_ : Shape := ⟨0, ![]⟩

class Facts : Prop where
  bcast_S_S16x262144x4 : S_.BroadcastsInDim S16x262144x4 (![] : Fin 0 → Fin S16x262144x4.rank)
  reducesTo_S16x262144x4_S_d0_1_2 : S16x262144x4.ReducesTo [0, 1, 2] S_
  h_S_ : 0 < S_.numel
  bcast_S_S262144x4 : S_.BroadcastsInDim S262144x4 (![] : Fin 0 → Fin S262144x4.rank)
  reducesTo_S262144x4_S_d0_1 : S262144x4.ReducesTo [0, 1] S_

variable [Facts]

def fn {F : FTy → Type} [FloatOps F] (main_arg0 : FVec F S16x262144x4 .f32) (main_arg1 : FVec F S16x262144x4 .f32) (main_arg2 : FVec F S262144x4 .f32) (main_arg3 : IVec S16x262144 1) : IVec S_ 1 :=
  let main_v0 : FVec F S16x262144x4 .f32 := Host.absf main_arg0
  let main_cst : FVec F S_ .f32 := constant S_ .f32 0x7F800000#32
  let main_v1 : FVec F S16x262144x4 .f32 := broadcastInDim S16x262144x4 ![] bcast_S_S16x262144x4 main_cst
  let main_v2 : IVec S16x262144x4 1 := cmpf .olt main_v0 main_v1
  let main_c : IVec S_ 1 := constantI S_ 1 1#1
  let main_v3 : IVec S_ 1 := (fun x v => Host.reduce IntOp.andi x v reducesTo_S16x262144x4_S_d0_1_2 h_S_) main_v2 main_c
  let main_v4 : FVec F S16x262144x4 .f32 := Host.absf main_arg1
  let main_cst_0 : FVec F S_ .f32 := constant S_ .f32 0x7F800000#32
  let main_v5 : FVec F S16x262144x4 .f32 := broadcastInDim S16x262144x4 ![] bcast_S_S16x262144x4 main_cst_0
  let main_v6 : IVec S16x262144x4 1 := cmpf .olt main_v4 main_v5
  let main_c_1 : IVec S_ 1 := constantI S_ 1 1#1
  let main_v7 : IVec S_ 1 := (fun x v => Host.reduce IntOp.andi x v reducesTo_S16x262144x4_S_d0_1_2 h_S_) main_v6 main_c_1
  let main_v8 : IVec S_ 1 := andi main_v3 main_v7
  let main_v9 : FVec F S262144x4 .f32 := Host.absf main_arg2
  let main_cst_2 : FVec F S_ .f32 := constant S_ .f32 0x7F800000#32
  let main_v10 : FVec F S262144x4 .f32 := broadcastInDim S262144x4 ![] bcast_S_S262144x4 main_cst_2
  let main_v11 : IVec S262144x4 1 := cmpf .olt main_v9 main_v10
  let main_c_3 : IVec S_ 1 := constantI S_ 1 1#1
  let main_v12 : IVec S_ 1 := (fun x v => Host.reduce IntOp.andi x v reducesTo_S262144x4_S_d0_1 h_S_) main_v11 main_c_3
  let main_v13 : IVec S_ 1 := andi main_v8 main_v12
  main_v13
-- ==== Kernel.lean ====
abbrev S16x262144x4 : Shape := ⟨3, ![16, 262144, 4]⟩
abbrev S262144x4 : Shape := ⟨2, ![262144, 4]⟩
abbrev S16x262144 : Shape := ⟨2, ![16, 262144]⟩
abbrev S2x8x128 : Shape := ⟨3, ![2, 8, 128]⟩
abbrev S8x16384x4 : Shape := ⟨3, ![8, 16384, 4]⟩
abbrev S16384x4 : Shape := ⟨2, ![16384, 4]⟩
abbrev S8x16384 : Shape := ⟨2, ![8, 16384]⟩
abbrev S1x8x128 : Shape := ⟨3, ![1, 8, 128]⟩
abbrev S16384x1 : Shape := ⟨2, ![16384, 1]⟩
abbrev S16384 : Shape := ⟨1, ![16384]⟩
abbrev S8x16384x1 : Shape := ⟨3, ![8, 16384, 1]⟩
abbrev S1x16384 : Shape := ⟨2, ![1, 16384]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S16x262144x4, .f32⟩
  | .hbm, ⟨1, _⟩ => ⟨S16x262144x4, .f32⟩
  | .hbm, ⟨2, _⟩ => ⟨S262144x4, .f32⟩
  | .hbm, ⟨3, _⟩ => ⟨S16x262144, .i1⟩
  | .hbm, ⟨4, _⟩ => ⟨S16x262144, .f32⟩
  | .hbm, ⟨5, _⟩ => ⟨S2x8x128, .f32⟩
  | .hbm, ⟨6, _⟩ => ⟨S2x8x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8x16384x4, .f32⟩
  | .local _ .vmem, ⟨1, _⟩ => ⟨S8x16384x4, .f32⟩
  | .local _ .vmem, ⟨2, _⟩ => ⟨S8x16384x4, .f32⟩
  | .local _ .vmem, ⟨3, _⟩ => ⟨S8x16384x4, .f32⟩
  | .local _ .vmem, ⟨4, _⟩ => ⟨S16384x4, .f32⟩
  | .local _ .vmem, ⟨5, _⟩ => ⟨S16384x4, .f32⟩
  | .local _ .vmem, ⟨6, _⟩ => ⟨S8x16384, .f32⟩
  | .local _ .vmem, ⟨7, _⟩ => ⟨S8x16384, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S16x262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16384x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16384x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S16384x4_S16384x4_0_0 : ∀ a, (![0, 0] : Fin 2 → Nat) a + S16384x4.size a ≤ S16384x4.size a
  h_S16384x4 : 0 < S16384x4.numel
  slices_S16384x4_o0_2_S16384x1 : S16384x4.Slices ![0, 2] S16384x1
  shapeCasts_S16384x1_S16384 : S16384x1.ShapeCasts S16384
  slices_S16384x4_o0_0_S16384x1 : S16384x4.Slices ![0, 0] S16384x1
  slices_S16384x4_o0_3_S16384x1 : S16384x4.Slices ![0, 3] S16384x1
  slices_S16384x4_o0_1_S16384x1 : S16384x4.Slices ![0, 1] S16384x1
  inb_S8x16384x4_S8x16384x4_0_0_0 : ∀ a, (![0, 0, 0] : Fin 3 → Nat) a + S8x16384x4.size a ≤ S8x16384x4.size a
  h_S8x16384x4 : 0 < S8x16384x4.numel
  slices_S8x16384x4_o0_0_0_S8x16384x1 : S8x16384x4.Slices ![0, 0, 0] S8x16384x1
  shapeCasts_S8x16384x1_S8x16384 : S8x16384x1.ShapeCasts S8x16384
  slices_S8x16384x4_o0_0_1_S8x16384x1 : S8x16384x4.Slices ![0, 0, 1] S8x16384x1
  slices_S8x16384x4_o0_0_2_S8x16384x1 : S8x16384x4.Slices ![0, 0, 2] S8x16384x1
  slices_S8x16384x4_o0_0_3_S8x16384x1 : S8x16384x4.Slices ![0, 0, 3] S8x16384x1
  shapeCasts_S16384_S1x16384 : S16384.ShapeCasts S1x16384
  broadcasts_S1x16384_S8x16384 : S1x16384.Broadcasts S8x16384
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  reduces_S8x16384_S8 : S8x16384.Reduces [1] S8
  shapeCasts_S8_S8x1 : S8.ShapeCasts S8x1
  reduces_S8x1_S1 : S8x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384x4.size a ≤ S16x262144x4.size a
  hwx0_0 : ∀ i : grid0.Coords, EltTy.bits .f32 = 32 ∨ (Rect.block (s := S16x262144x4) S8x16384x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384x4.size a ≤ S16x262144x4.size a
  hwx0_1 : ∀ i : grid0.Coords, EltTy.bits .f32 = 32 ∨ (Rect.block (s := S16x262144x4) S8x16384x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x4.size a ≤ S262144x4.size a
  hwx0_2 : ∀ i : grid0.Coords, EltTy.bits .f32 = 32 ∨ (Rect.block (s := S262144x4) S16384x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16384.size a ≤ S16x262144.size a
  hwx0_3 : ∀ i : grid0.Coords, EltTy.bits .f32 = 32 ∨ (Rect.block (s := S16x262144) S8x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

abbrev win0_0 : Pipeline.Window sig grid0 :=
  Pipeline.Window.ofSpec (Memref.whole main_arg0) S8x16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16384x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16384x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x262144x4 : Shape := ⟨3, ![16, 262144, 4]⟩
abbrev S262144x4 : Shape := ⟨2, ![262144, 4]⟩
abbrev S16x262144 : Shape := ⟨2, ![16, 262144]⟩
abbrev S262144x1 : Shape := ⟨2, ![262144, 1]⟩
abbrev S262144 : Shape := ⟨1, ![262144]⟩
abbrev S_ : Shape := ⟨0, ![]⟩
abbrev S16x262144x1 : Shape := ⟨3, ![16, 262144, 1]⟩
abbrev S1x262144 : Shape := ⟨2, ![1, 262144]⟩
abbrev S16x262144x2 : Shape := ⟨3, ![16, 262144, 2]⟩

abbrev nBuf : Space → Nat
  | .hbm => 147
  | .vmem => 0
  | .smem => 0
  | _ => 0

abbrev hbmTy0_0 (i : Nat) : BufTy := match i % 128 with
  | 0 => ⟨S16x262144x4, .f32⟩
  | 1 => ⟨S16x262144x4, .f32⟩
  | 2 => ⟨S262144x4, .f32⟩
  | 3 => ⟨S16x262144, .i1⟩
  | 4 => ⟨S262144x1, .f32⟩
  | 5 => ⟨S262144, .f32⟩
  | 6 => ⟨S262144x1, .f32⟩
  | 7 => ⟨S262144, .f32⟩
  | 8 => ⟨S262144, .f32⟩
  | 9 => ⟨S262144x1, .f32⟩
  | 10 => ⟨S262144, .f32⟩
  | 11 => ⟨S262144x1, .f32⟩
  | 12 => ⟨S262144, .f32⟩
  | 13 => ⟨S262144, .f32⟩
  | 14 => ⟨S262144x1, .f32⟩
  | 15 => ⟨S262144, .f32⟩
  | 16 => ⟨S_, .f32⟩
  | 17 => ⟨S262144, .f32⟩
  | 18 => ⟨S262144, .f32⟩
  | 19 => ⟨S262144, .f32⟩
  | 20 => ⟨S262144x1, .f32⟩
  | 21 => ⟨S262144, .f32⟩
  | 22 => ⟨S_, .f32⟩
  | 23 => ⟨S262144, .f32⟩
  | 24 => ⟨S262144, .f32⟩
  | 25 => ⟨S262144, .f32⟩
  | 26 => ⟨S16x262144x1, .f32⟩
  | 27 => ⟨S16x262144, .f32⟩
  | 28 => ⟨S16x262144x1, .f32⟩
  | 29 => ⟨S16x262144, .f32⟩
  | 30 => ⟨S16x262144x1, .f32⟩
  | 31 => ⟨S16x262144, .f32⟩
  | 32 => ⟨S16x262144x1, .f32⟩
  | 33 => ⟨S16x262144, .f32⟩
  | 34 => ⟨S1x262144, .f32⟩
  | 35 => ⟨S16x262144, .f32⟩
  | 36 => ⟨S16x262144, .f32⟩
  | 37 => ⟨S1x262144, .f32⟩
  | 38 => ⟨S16x262144, .f32⟩
  | 39 => ⟨S16x262144, .f32⟩
  | 40 => ⟨S1x262144, .f32⟩
  | 41 => ⟨S16x262144, .f32⟩
  | 42 => ⟨S16x262144, .f32⟩
  | 43 => ⟨S1x262144, .f32⟩
  | 44 => ⟨S16x262144, .f32⟩
  | 45 => ⟨S16x262144, .f32⟩
  | 46 => ⟨S16x262144, .f32⟩
  | 47 => ⟨S1x262144, .f32⟩
  | 48 => ⟨S16x262144, .f32⟩
  | 49 => ⟨S16x262144, .f32⟩
  | 50 => ⟨S16x262144, .f32⟩
  | 51 => ⟨S1x262144, .f32⟩
  | 52 => ⟨S16x262144, .f32⟩
  | 53 => ⟨S16x262144, .f32⟩
  | 54 => ⟨S_, .f32⟩
  | 55 => ⟨S16x262144, .f32⟩
  | 56 => ⟨S16x262144, .f32⟩
  | 57 => ⟨S16x262144, .f32⟩
  | 58 => ⟨S_, .f32⟩
  | 59 => ⟨S16x262144, .f32⟩
  | 60 => ⟨S16x262144, .f32⟩
  | 61 => ⟨S16x262144, .f32⟩
  | 62 => ⟨S_, .f32⟩
  | 63 => ⟨S16x262144, .f32⟩
  | 64 => ⟨S16x262144, .f32⟩
  | 65 => ⟨S16x262144, .f32⟩
  | 66 => ⟨S_, .f32⟩
  | 67 => ⟨S16x262144, .f32⟩
  | 68 => ⟨S16x262144, .f32⟩
  | 69 => ⟨S16x262144, .f32⟩
  | 70 => ⟨S16x262144x1, .f32⟩
  | 71 => ⟨S16x262144x1, .f32⟩
  | 72 => ⟨S16x262144x1, .f32⟩
  | 73 => ⟨S16x262144x1, .f32⟩
  | 74 => ⟨S16x262144x4, .f32⟩
  | 75 => ⟨S16x262144x1, .f32⟩
  | 76 => ⟨S16x262144, .f32⟩
  | 77 => ⟨S16x262144x1, .f32⟩
  | 78 => ⟨S16x262144, .f32⟩
  | 79 => ⟨S16x262144, .f32⟩
  | 80 => ⟨S16x262144x1, .f32⟩
  | 81 => ⟨S16x262144, .f32⟩
  | 82 => ⟨S16x262144x1, .f32⟩
  | 83 => ⟨S16x262144, .f32⟩
  | 84 => ⟨S16x262144, .f32⟩
  | 85 => ⟨S16x262144, .f32⟩
  | 86 => ⟨S16x262144x1, .f32⟩
  | 87 => ⟨S16x262144, .f32⟩
  | 88 => ⟨S16x262144x1, .f32⟩
  | 89 => ⟨S16x262144, .f32⟩
  | 90 => ⟨S16x262144, .f32⟩
  | 91 => ⟨S16x262144x1, .f32⟩
  | 92 => ⟨S16x262144, .f32⟩
  | 93 => ⟨S16x262144x1, .f32⟩
  | 94 => ⟨S16x262144, .f32⟩
  | 95 => ⟨S16x262144, .f32⟩
  | 96 => ⟨S16x262144, .f32⟩
  | 97 => ⟨S16x262144x2, .f32⟩
  | 98 => ⟨S16x262144x2, .f32⟩
  | 99 => ⟨S16x262144x2, .f32⟩
  | 100 => ⟨S16x262144x2, .f32⟩
  | 101 => ⟨S16x262144x2, .f32⟩
  | 102 => ⟨S16x262144x2, .f32⟩
  | 103 => ⟨S16x262144x2, .f32⟩
  | 104 => ⟨S_, .f32⟩
  | 105 => ⟨S_, .f32⟩
  | 106 => ⟨S16x262144x2, .f32⟩
  | 107 => ⟨S16x262144x2, .f32⟩
  | 108 => ⟨S16x262144x1, .f32⟩
  | 109 => ⟨S16x262144, .f32⟩
  | 110 => ⟨S16x262144x1, .f32⟩
  | 111 => ⟨S16x262144, .f32⟩
  | 112 => ⟨S16x262144, .f32⟩
  | 113 => ⟨S16x262144, .f32⟩
  | 114 => ⟨S16x262144, .f32⟩
  | 115 => ⟨S16x262144, .f32⟩
  | 116 => ⟨S16x262144x2, .f32⟩
  | 117 => ⟨S16x262144x2, .f32⟩
  | 118 => ⟨S16x262144x2, .f32⟩
  | 119 => ⟨S16x262144x2, .f32⟩
  | 120 => ⟨S16x262144x2, .f32⟩
  | 121 => ⟨S16x262144x2, .f32⟩
  | 122 => ⟨S16x262144x2, .f32⟩
  | 123 => ⟨S_, .f32⟩
  | 124 => ⟨S_, .f32⟩
  | 125 => ⟨S16x262144x2, .f32⟩
  | 126 => ⟨S16x262144x2, .f32⟩
  | 127 => ⟨S16x262144x1, .f32⟩
  | _ => ⟨S16x262144x4, .f32⟩

abbrev hbmTy0_1 (i : Nat) : BufTy := match i % 128 with
  | 0 => ⟨S16x262144, .f32⟩
  | 1 => ⟨S16x262144x1, .f32⟩
  | 2 => ⟨S16x262144, .f32⟩
  | 3 => ⟨S16x262144, .f32⟩
  | 4 => ⟨S16x262144, .f32⟩
  | 5 => ⟨S16x262144, .f32⟩
  | 6 => ⟨S16x262144, .f32⟩
  | 7 => ⟨S16x262144, .f32⟩
  | 8 => ⟨S_, .f32⟩
  | 9 => ⟨S16x262144, .f32⟩
  | 10 => ⟨S16x262144, .f32⟩
  | 11 => ⟨S16x262144, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S16x262144x4, .f32⟩

abbrev hbmTy (i : Nat) : BufTy := match i / 128 with
  | 0 => hbmTy0_0 i
  | 1 => hbmTy0_1 i
  | _ => ⟨S16x262144x4, .f32⟩

abbrev bufTy : (tb : Table) → Fin (tcTables nBuf tb) → BufTy
  | .hbm, ⟨i, _⟩ => hbmTy i
  | _, _ => ⟨S16x262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_1 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_5 : Ref sig .tc := ⟨.hbm, 104, rfl⟩
abbrev main_call0_v0 : Ref sig .tc := ⟨.hbm, 105, rfl⟩
abbrev main_call0_v1 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_cst_6 : Ref sig .tc := ⟨.hbm, 123, rfl⟩
abbrev main_call1_v0 : Ref sig .tc := ⟨.hbm, 124, rfl⟩
abbrev main_call1_v1 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_cst_7 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_cst_8 : Ref sig .tc := ⟨.hbm, 140, rfl⟩
abbrev main_v123 : Ref sig .tc := ⟨.hbm, 141, rfl⟩
abbrev main_cst_9 : Ref sig .tc := ⟨.hbm, 142, rfl⟩
abbrev main_v124 : Ref sig .tc := ⟨.hbm, 143, rfl⟩
abbrev main_cst_10 : Ref sig .tc := ⟨.hbm, 144, rfl⟩
abbrev main_v125 : Ref sig .tc := ⟨.hbm, 145, rfl⟩
abbrev main_v126 : Ref sig .tc := ⟨.hbm, 146, rfl⟩

abbrev nD : Nat := 1
abbrev τ : Topo := Topo.v7x

variable {F : FTy → Type} [FloatOps F]

class Facts₀ : Prop where
  slices_S262144x4_S262144x1_0_2 : S262144x4.Slices ![0, 2] S262144x1
  shapeCasts_S262144x1_S262144 : S262144x1.ShapeCasts S262144
  slices_S262144x4_S262144x1_0_0 : S262144x4.Slices ![0, 0] S262144x1
  slices_S262144x4_S262144x1_0_3 : S262144x4.Slices ![0, 3] S262144x1
  slices_S262144x4_S262144x1_0_1 : S262144x4.Slices ![0, 1] S262144x1
  bcast_S_S262144 : S_.BroadcastsInDim S262144 (![] : Fin 0 → Fin S262144.rank)
  slices_S16x262144x4_S16x262144x1_0_0_0 : S16x262144x4.Slices ![0, 0, 0] S16x262144x1
  shapeCasts_S16x262144x1_S16x262144 : S16x262144x1.ShapeCasts S16x262144
  slices_S16x262144x4_S16x262144x1_0_0_1 : S16x262144x4.Slices ![0, 0, 1] S16x262144x1
  slices_S16x262144x4_S16x262144x1_0_0_2 : S16x262144x4.Slices ![0, 0, 2] S16x262144x1
  slices_S16x262144x4_S16x262144x1_0_0_3 : S16x262144x4.Slices ![0, 0, 3] S16x262144x1
  bcast_S262144_S1x262144_1 : S262144.BroadcastsInDim S1x262144 (![1] : Fin 1 → Fin S1x262144.rank)
  bcast_S1x262144_S16x262144_0_1 : S1x262144.BroadcastsInDim S16x262144 (![0, 1] : Fin 2 → Fin S16x262144.rank)
  bcast_S_S16x262144 : S_.BroadcastsInDim S16x262144 (![] : Fin 0 → Fin S16x262144.rank)
  bcast_S16x262144_S16x262144x1_0_1 : S16x262144.BroadcastsInDim S16x262144x1 (![0, 1] : Fin 2 → Fin S16x262144x1.rank)
  concatenates_S16x262144x1_S16x262144x1_S16x262144x1_S16x262144x1_S16x262144x4_d2 : Shape.Concatenates [S16x262144x1, S16x262144x1, S16x262144x1, S16x262144x1] S16x262144x4 2
  slices_S16x262144x4_S16x262144x2_0_0_0 : S16x262144x4.Slices ![0, 0, 0] S16x262144x2
  slices_S16x262144x4_S16x262144x2_0_0_2 : S16x262144x4.Slices ![0, 0, 2] S16x262144x2
  bcast_S_S16x262144x2 : S_.BroadcastsInDim S16x262144x2 (![] : Fin 0 → Fin S16x262144x2.rank)
  slices_S16x262144x2_S16x262144x1_0_0_0 : S16x262144x2.Slices ![0, 0, 0] S16x262144x1
  slices_S16x262144x2_S16x262144x1_0_0_1 : S16x262144x2.Slices ![0, 0, 1] S16x262144x1
  reducesTo_S16x262144_S_d0_1 : S16x262144.ReducesTo [0, 1] S_
  h_S_ : 0 < S_.numel

variable [Facts₀]

class Facts : Prop extends Facts₀ where

variable [Facts]
-- ==== Proof.Cases.lean ====
/-
  What one grid point leaves in the two accumulator blocks, as values.

  The body adds to each `[1, 8, 128]` accumulator block the sum over its tile (8 batch rows by 16384 anchors),
  broadcast to every entry of the block: for the first accumulator the tile's loss terms, for the second the tile's
  mask. At the first tile of a batch group (tile index 0) the block is first set to zero, so the point leaves
  `0 + tile sum`; at every other tile it leaves `previous + tile sum`.
-/
import proofs.«123826_j7413113553025_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Acc

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The loss accumulator after one point: the body's arithmetic on the tile's deltas `x0`, targets `x1`, anchors
    `x2` and mask `x3`, added to the block's previous contents `acc`. -/
def lossStep (x0 x1 : Vec F S8x16384x4 .f32) (x2 : Vec F S16384x4 .f32) (x3 : Vec F S8x16384 .f32)
    (acc : Vec F S1x8x128 .f32) : Vec F S1x8x128 .f32 :=
  k0_pay2 (k0_pay24 (k0_pay7 x2) (k0_pay8 x0) (k0_pay9 x2 x0) (k0_pay10 x2 x0) (k0_pay11 x0) (k0_pay12 x2) x1)
    (k0_pay25 (k0_pay7 x2) (k0_pay8 x0) (k0_pay9 x2 x0) (k0_pay10 x2 x0) (k0_pay11 x0) (k0_pay12 x2) x1)
    (k0_pay26 (k0_pay7 x2) (k0_pay8 x0) (k0_pay10 x2 x0) x1)
    (k0_pay27 (k0_pay7 x2) (k0_pay8 x0) (k0_pay10 x2 x0) x1)
    (k0_pay28 (k0_pay9 x2 x0) (k0_pay11 x0) (k0_pay12 x2) x1)
    x3 acc

/-- The mask-count accumulator after one point: the tile's mask sum added to the previous contents. -/
def posStep (x3 : Vec F S8x16384 .f32) (acc : Vec F S1x8x128 .f32) : Vec F S1x8x128 .f32 := k0_pay3 x3 acc

/-- The zero block a batch group's first tile starts from. -/
abbrev zeroBlock : Vec F S1x8x128 .f32 := broadcast S1x8x128 (Scalar.ofBits .f32 0x00000000#32)

/-- A later tile: the loss block holds the previous contents plus the tile's sum. -/
theorem out_B_4 (c : Dev nD) (i : grid0.Coords) (a2 : Memref sig .tc .vmem S8x16384x4 .f32) (h2 : a2.IsWhole) (a3 : Memref sig .tc .vmem S8x16384x4 .f32) (h3 : a3.IsWhole) (a4 : Memref sig .tc .vmem S16384x4 .f32) (h4 : a4.IsWhole) (a5 : Memref sig .tc .vmem S8x16384 .f32) (h5 : a5.IsWhole) (a6 : Memref sig .tc .vmem S1x8x128 .f32) (h6 : a6.IsWhole) (a7 : Memref sig .tc .vmem S1x8x128 .f32) (h7 : a7.IsWhole) (hc : ¬cond0_0 i)
    (x0 x1 : Vec F S8x16384x4 .f32) (x2 : Vec F S16384x4 .f32) (x3 : Vec F S8x16384 .f32) (xo4 xo5 : Vec F S1x8x128 .f32) :
    out0_B_4 c i a2 h2 a3 h3 a4 h4 a5 h5 a6 h6 a7 h7 hc x0 x1 x2 x3 xo4 xo5 = lossStep x0 x1 x2 x3 xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S8x16384x4) hz3, View.ld_unit_zero (S := S16384x4) hz2, View.ld_unit_zero (S := S8x16384) hz2,
    View.ld_unit_zero (S := S1x8x128) hz3]
  rfl

/-- A later tile: the count block holds the previous contents plus the tile's mask sum. -/
theorem out_B_5 (c : Dev nD) (i : grid0.Coords) (a2 : Memref sig .tc .vmem S8x16384x4 .f32) (h2 : a2.IsWhole) (a3 : Memref sig .tc .vmem S8x16384x4 .f32) (h3 : a3.IsWhole) (a4 : Memref sig .tc .vmem S16384x4 .f32) (h4 : a4.IsWhole) (a5 : Memref sig .tc .vmem S8x16384 .f32) (h5 : a5.IsWhole) (a6 : Memref sig .tc .vmem S1x8x128 .f32) (h6 : a6.IsWhole) (a7 : Memref sig .tc .vmem S1x8x128 .f32) (h7 : a7.IsWhole) (hc : ¬cond0_0 i)
    (x0 x1 : Vec F S8x16384x4 .f32) (x2 : Vec F S16384x4 .f32) (x3 : Vec F S8x16384 .f32) (xo4 xo5 : Vec F S1x8x128 .f32) :
    out0_B_5 c i a2 h2 a3 h3 a4 h4 a5 h5 a6 h6 a7 h7 hc x0 x1 x2 x3 xo4 xo5 = posStep x3 xo5 := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz3]
  simp only [View.readAt_eq_ld, h5.read_unread, h7.read_unread,
    View.ld_unit_zero (S := S8x16384) hz2, View.ld_unit_zero (S := S1x8x128) hz3]
  rfl

/-- A batch group's first tile: the loss block holds zero plus the tile's sum. -/
theorem out_A_4 (c : Dev nD) (i : grid0.Coords) (a2 : Memref sig .tc .vmem S8x16384x4 .f32) (h2 : a2.IsWhole) (a3 : Memref sig .tc .vmem S8x16384x4 .f32) (h3 : a3.IsWhole) (a4 : Memref sig .tc .vmem S16384x4 .f32) (h4 : a4.IsWhole) (a5 : Memref sig .tc .vmem S8x16384 .f32) (h5 : a5.IsWhole) (a6 : Memref sig .tc .vmem S1x8x128 .f32) (h6 : a6.IsWhole) (a7 : Memref sig .tc .vmem S1x8x128 .f32) (h7 : a7.IsWhole) (hc : cond0_0 i)
    (x0 x1 : Vec F S8x16384x4 .f32) (x2 : Vec F S16384x4 .f32) (x3 : Vec F S8x16384 .f32) :
    out0_A_4 c i a2 h2 a3 h3 a4 h4 a5 h5 a6 h6 a7 h7 hc x0 x1 x2 x3 = lossStep x0 x1 x2 x3 zeroBlock := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1x8x128) hz3]
  simp only [View.readCov_unit_zero (S := S1x8x128) _ hz3, View.readAt_eq_ld, h2.read_unread, h3.read_unread, h4.read_unread,
    h5.read_unread,
    View.ld_unit_zero (S := S8x16384x4) hz3, View.ld_unit_zero (S := S16384x4) hz2, View.ld_unit_zero (S := S8x16384) hz2,
    View.ld_unit_zero (S := S1x8x128) hz3]
  rfl

/-- A batch group's first tile: the count block holds zero plus the tile's mask sum. -/
theorem out_A_5 (c : Dev nD) (i : grid0.Coords) (a2 : Memref sig .tc .vmem S8x16384x4 .f32) (h2 : a2.IsWhole) (a3 : Memref sig .tc .vmem S8x16384x4 .f32) (h3 : a3.IsWhole) (a4 : Memref sig .tc .vmem S16384x4 .f32) (h4 : a4.IsWhole) (a5 : Memref sig .tc .vmem S8x16384 .f32) (h5 : a5.IsWhole) (a6 : Memref sig .tc .vmem S1x8x128 .f32) (h6 : a6.IsWhole) (a7 : Memref sig .tc .vmem S1x8x128 .f32) (h7 : a7.IsWhole) (hc : cond0_0 i)
    (x0 x1 : Vec F S8x16384x4 .f32) (x2 : Vec F S16384x4 .f32) (x3 : Vec F S8x16384 .f32) :
    out0_A_5 c i a2 h2 a3 h3 a4 h4 a5 h5 a6 h6 a7 h7 hc x0 x1 x2 x3 = posStep x3 zeroBlock := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x8x128) hz3]
  simp only [View.readCov_unit_zero (S := S1x8x128) _ hz3, View.readAt_eq_ld, h5.read_unread,
    View.ld_unit_zero (S := S8x16384) hz2, View.ld_unit_zero (S := S1x8x128) hz3]
  rfl

end Cert.KernelIdeal.Acc

end
-- ==== Proof.Spec.lean ====
/-
  The specification: the masked mean of the generalized-IoU loss, as one function of the argument arrays on the
  extended reals.

  For a batch row `b` and an anchor `n` the predicted box is decoded from the anchor box and the four deltas
  (centre shifted by `d0 * w`, `d1 * h`, extents scaled by `exp d2`, `exp d3`), and the loss term is
  `(1 - giou) * mask`, where `giou = inter / union - (enclose - union) / enclose` of the predicted box and the target
  box. The result is the sum of the terms over all `(b, n)` divided by `max (sum of the mask) 1`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One half, the only non-integer literal of both programs. -/
abbrev half : EReal := Ideal.ofBits .f32 0x3F000000#32
/-- The literal one. -/
abbrev one : EReal := Ideal.ofBits .f32 0x3F800000#32
/-- The literal zero (as a pattern; it denotes the extended real `0`). -/
abbrev zero : EReal := Ideal.ofBits .f32 0x00000000#32

/-- The loss term of one (batch row, anchor) pair: the anchor box `a0..a3`, the deltas `d0..d3`, the target box
    `t0..t3` and the mask value `mk`. -/
def term (a0 a1 a2 a3 d0 d1 d2 d3 t0 t1 t2 t3 mk : EReal) : EReal :=
  let w := a2 - a0
  let h := a3 - a1
  let cx := a0 + half * w
  let cy := a1 + half * h
  let pcx := d0 * w + cx
  let pcy := d1 * h + cy
  let pw := Ideal.exp d2 * w
  let ph := Ideal.exp d3 * h
  let x1 := pcx - half * pw
  let y1 := pcy - half * ph
  let x2 := pcx + half * pw
  let y2 := pcy + half * ph
  let area1 := (x2 - x1) * (y2 - y1)
  let area2 := (t2 - t0) * (t3 - t1)
  let inter := max (min x2 t2 - max x1 t0) zero * max (min y2 t3 - max y1 t1) zero
  let union := area1 + area2 - inter
  let iou := Ideal.div inter union
  let enclose := max (max x2 t2 - min x1 t0) zero * max (max y2 t3 - min y1 t1) zero
  let giou := iou - Ideal.div (enclose - union) enclose
  (one - giou) * mk

/-! ## Over the whole arrays -/

/-- Deltas or target boxes: `[16, 262144, 4]`. -/
abbrev Boxes := (⟨3, ![16, 262144, 4]⟩ : Shape).Idx → EReal
/-- Anchor boxes: `[262144, 4]`. -/
abbrev Anchors := (⟨2, ![262144, 4]⟩ : Shape).Idx → EReal
/-- The mask as numbers: `[16, 262144]`. -/
abbrev Mask := (⟨2, ![16, 262144]⟩ : Shape).Idx → EReal

/-- The loss term at batch row `b` and anchor `n`. -/
def lossAt (P T : Boxes) (A : Anchors) (M : Mask) (b : Fin 16) (n : Fin 262144) : EReal :=
  term (A (ix2 n (0 : Fin 4))) (A (ix2 n (1 : Fin 4))) (A (ix2 n (2 : Fin 4))) (A (ix2 n (3 : Fin 4)))
    (P (ix3 b n (0 : Fin 4))) (P (ix3 b n (1 : Fin 4))) (P (ix3 b n (2 : Fin 4))) (P (ix3 b n (3 : Fin 4)))
    (T (ix3 b n (0 : Fin 4))) (T (ix3 b n (1 : Fin 4))) (T (ix3 b n (2 : Fin 4))) (T (ix3 b n (3 : Fin 4)))
    (M (ix2 b n))

/-- The sum of all loss terms. -/
def totalLoss (P T : Boxes) (A : Anchors) (M : Mask) : EReal := ∑ b : Fin 16, ∑ n : Fin 262144, lossAt P T A M b n
/-- The sum of the mask. -/
def totalPos (M : Mask) : EReal := ∑ b : Fin 16, ∑ n : Fin 262144, M (ix2 b n)
/-- The result: the masked mean. -/
def result (P T : Boxes) (A : Anchors) (M : Mask) : EReal := Ideal.div (totalLoss P T A M) (max (totalPos M) one)

/-! ## Over one tile: 8 batch rows by 16384 anchors -/

/-- A tile of deltas or target boxes: `[8, 16384, 4]`. -/
abbrev BoxTile := (⟨3, ![8, 16384, 4]⟩ : Shape).Idx → EReal
/-- A tile of anchors: `[16384, 4]`. -/
abbrev AnchorTile := (⟨2, ![16384, 4]⟩ : Shape).Idx → EReal
/-- A tile of the mask: `[8, 16384]`. -/
abbrev MaskTile := (⟨2, ![8, 16384]⟩ : Shape).Idx → EReal

/-- The loss term at row `r` and lane `l` of a tile. -/
def tileTerm (p t : BoxTile) (a : AnchorTile) (mk : MaskTile) (r : Fin 8) (l : Fin 16384) : EReal :=
  term (a (ix2 l (0 : Fin 4))) (a (ix2 l (1 : Fin 4))) (a (ix2 l (2 : Fin 4))) (a (ix2 l (3 : Fin 4)))
    (p (ix3 r l (0 : Fin 4))) (p (ix3 r l (1 : Fin 4))) (p (ix3 r l (2 : Fin 4))) (p (ix3 r l (3 : Fin 4)))
    (t (ix3 r l (0 : Fin 4))) (t (ix3 r l (1 : Fin 4))) (t (ix3 r l (2 : Fin 4))) (t (ix3 r l (3 : Fin 4)))
    (mk (ix2 r l))

/-- The sum of a tile's loss terms: lanes first, then rows. -/
def tileLoss (p t : BoxTile) (a : AnchorTile) (mk : MaskTile) : EReal := ∑ r : Fin 8, ∑ l : Fin 16384, tileTerm p t a mk r l
/-- The sum of a tile of the mask. -/
def tilePos (mk : MaskTile) : EReal := ∑ r : Fin 8, ∑ l : Fin 16384, mk (ix2 r l)

end Cert.Spec

end
-- ==== Proof.TileValue.lean ====
/-
  One tile's accumulation read at an index, on the extended reals.

  The body slices the anchor tile `[16384, 4]` and the box tiles `[8, 16384, 4]` into their four columns, broadcasts
  the anchor quantities over the 8 batch rows, computes the loss term of every (row, lane) pair pointwise, sums over
  the lanes, then over the rows, and adds the scalar to every entry of the accumulator block. Read at any entry `j`
  of the block this is `acc j + ∑ rows ∑ lanes term`.
-/
import proofs.«123826_j7413113553025_2_alg».proof.Proof.Cases
import proofs.«123826_j7413113553025_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Spec

/-! ## Layout: a column of a tile, and one row broadcast over the batch rows -/

section Layout
variable {α : Type}

theorem anchor_col0 (v : S16384x4.Idx → α) (h : S16384x4.Slices ![0, 0] S16384x1) (hc : S16384x1.ShapeCasts S16384)
    (l : Fin 16384) : shapeCast S16384 (extractStridedSlice S16384x1 ![0, 0] v h) hc (ix1 l) = v (ix2 l (0 : Fin 4)) :=
  (shapeCast_apply _ hc (ix1 l) (ix2 l (0 : Fin 1)) (by
      rw [Shape.rowMajor_val_two, Shape.rowMajor_val_one]; show l.val * 1 + 0 = l.val; omega)).trans
    (extractStridedSlice_apply _ v h (ix2 l (0 : Fin 1)) (ix2 l (0 : Fin 4)) fun a => match a with
      | ⟨0, _⟩ => by show l.val = 0 + l.val; omega
      | ⟨1, _⟩ => rfl)
theorem anchor_col1 (v : S16384x4.Idx → α) (h : S16384x4.Slices ![0, 1] S16384x1) (hc : S16384x1.ShapeCasts S16384)
    (l : Fin 16384) : shapeCast S16384 (extractStridedSlice S16384x1 ![0, 1] v h) hc (ix1 l) = v (ix2 l (1 : Fin 4)) :=
  (shapeCast_apply _ hc (ix1 l) (ix2 l (0 : Fin 1)) (by
      rw [Shape.rowMajor_val_two, Shape.rowMajor_val_one]; show l.val * 1 + 0 = l.val; omega)).trans
    (extractStridedSlice_apply _ v h (ix2 l (0 : Fin 1)) (ix2 l (1 : Fin 4)) fun a => match a with
      | ⟨0, _⟩ => by show l.val = 0 + l.val; omega
      | ⟨1, _⟩ => rfl)
theorem anchor_col2 (v : S16384x4.Idx → α) (h : S16384x4.Slices ![0, 2] S16384x1) (hc : S16384x1.ShapeCasts S16384)
    (l : Fin 16384) : shapeCast S16384 (extractStridedSlice S16384x1 ![0, 2] v h) hc (ix1 l) = v (ix2 l (2 : Fin 4)) :=
  (shapeCast_apply _ hc (ix1 l) (ix2 l (0 : Fin 1)) (by
      rw [Shape.rowMajor_val_two, Shape.rowMajor_val_one]; show l.val * 1 + 0 = l.val; omega)).trans
    (extractStridedSlice_apply _ v h (ix2 l (0 : Fin 1)) (ix2 l (2 : Fin 4)) fun a => match a with
      | ⟨0, _⟩ => by show l.val = 0 + l.val; omega
      | ⟨1, _⟩ => rfl)
theorem anchor_col3 (v : S16384x4.Idx → α) (h : S16384x4.Slices ![0, 3] S16384x1) (hc : S16384x1.ShapeCasts S16384)
    (l : Fin 16384) : shapeCast S16384 (extractStridedSlice S16384x1 ![0, 3] v h) hc (ix1 l) = v (ix2 l (3 : Fin 4)) :=
  (shapeCast_apply _ hc (ix1 l) (ix2 l (0 : Fin 1)) (by
      rw [Shape.rowMajor_val_two, Shape.rowMajor_val_one]; show l.val * 1 + 0 = l.val; omega)).trans
    (extractStridedSlice_apply _ v h (ix2 l (0 : Fin 1)) (ix2 l (3 : Fin 4)) fun a => match a with
      | ⟨0, _⟩ => by show l.val = 0 + l.val; omega
      | ⟨1, _⟩ => rfl)

theorem box_col0 (v : S8x16384x4.Idx → α) (h : S8x16384x4.Slices ![0, 0, 0] S8x16384x1) (hc : S8x16384x1.ShapeCasts S8x16384)
    (r : Fin 8) (l : Fin 16384) :
    shapeCast S8x16384 (extractStridedSlice S8x16384x1 ![0, 0, 0] v h) hc (ix2 r l) = v (ix3 r l (0 : Fin 4)) :=
  (shapeCast_apply _ hc (ix2 r l) (ix3 r l (0 : Fin 1)) (by
      rw [Shape.rowMajor_val_three, Shape.rowMajor_val_two]
      show (r.val * 16384 + l.val) * 1 + 0 = r.val * 16384 + l.val; omega)).trans
    (extractStridedSlice_apply _ v h (ix3 r l (0 : Fin 1)) (ix3 r l (0 : Fin 4)) fun a => match a with
      | ⟨0, _⟩ => by show r.val = 0 + r.val; omega
      | ⟨1, _⟩ => by show l.val = 0 + l.val; omega
      | ⟨2, _⟩ => rfl)
theorem box_col1 (v : S8x16384x4.Idx → α) (h : S8x16384x4.Slices ![0, 0, 1] S8x16384x1) (hc : S8x16384x1.ShapeCasts S8x16384)
    (r : Fin 8) (l : Fin 16384) :
    shapeCast S8x16384 (extractStridedSlice S8x16384x1 ![0, 0, 1] v h) hc (ix2 r l) = v (ix3 r l (1 : Fin 4)) :=
  (shapeCast_apply _ hc (ix2 r l) (ix3 r l (0 : Fin 1)) (by
      rw [Shape.rowMajor_val_three, Shape.rowMajor_val_two]
      show (r.val * 16384 + l.val) * 1 + 0 = r.val * 16384 + l.val; omega)).trans
    (extractStridedSlice_apply _ v h (ix3 r l (0 : Fin 1)) (ix3 r l (1 : Fin 4)) fun a => match a with
      | ⟨0, _⟩ => by show r.val = 0 + r.val; omega
      | ⟨1, _⟩ => by show l.val = 0 + l.val; omega
      | ⟨2, _⟩ => rfl)
theorem box_col2 (v : S8x16384x4.Idx → α) (h : S8x16384x4.Slices ![0, 0, 2] S8x16384x1) (hc : S8x16384x1.ShapeCasts S8x16384)
    (r : Fin 8) (l : Fin 16384) :
    shapeCast S8x16384 (extractStridedSlice S8x16384x1 ![0, 0, 2] v h) hc (ix2 r l) = v (ix3 r l (2 : Fin 4)) :=
  (shapeCast_apply _ hc (ix2 r l) (ix3 r l (0 : Fin 1)) (by
      rw [Shape.rowMajor_val_three, Shape.rowMajor_val_two]
      show (r.val * 16384 + l.val) * 1 + 0 = r.val * 16384 + l.val; omega)).trans
    (extractStridedSlice_apply _ v h (ix3 r l (0 : Fin 1)) (ix3 r l (2 : Fin 4)) fun a => match a with
      | ⟨0, _⟩ => by show r.val = 0 + r.val; omega
      | ⟨1, _⟩ => by show l.val = 0 + l.val; omega
      | ⟨2, _⟩ => rfl)
theorem box_col3 (v : S8x16384x4.Idx → α) (h : S8x16384x4.Slices ![0, 0, 3] S8x16384x1) (hc : S8x16384x1.ShapeCasts S8x16384)
    (r : Fin 8) (l : Fin 16384) :
    shapeCast S8x16384 (extractStridedSlice S8x16384x1 ![0, 0, 3] v h) hc (ix2 r l) = v (ix3 r l (3 : Fin 4)) :=
  (shapeCast_apply _ hc (ix2 r l) (ix3 r l (0 : Fin 1)) (by
      rw [Shape.rowMajor_val_three, Shape.rowMajor_val_two]
      show (r.val * 16384 + l.val) * 1 + 0 = r.val * 16384 + l.val; omega)).trans
    (extractStridedSlice_apply _ v h (ix3 r l (0 : Fin 1)) (ix3 r l (3 : Fin 4)) fun a => match a with
      | ⟨0, _⟩ => by show r.val = 0 + r.val; omega
      | ⟨1, _⟩ => by show l.val = 0 + l.val; omega
      | ⟨2, _⟩ => rfl)

/-- A lane vector given a leading unit axis and broadcast over the 8 rows reads the lane. -/
theorem row_bcast (v : S16384.Idx → α) (hc : S16384.ShapeCasts S1x16384) (hb : S1x16384.Broadcasts S8x16384)
    (r : Fin 8) (l : Fin 16384) : broadcastTo S8x16384 (shapeCast S1x16384 v hc) hb (ix2 r l) = v (ix1 l) :=
  (broadcastTo_1b_ab_apply _ hb r l).trans (shapeCast_a_1a_apply v hc 0 l)

end Layout

/-- The vector exponential at an index. -/
theorem exp_at {s : Shape} (a : FVec Ideal s .f32) (i : s.Idx) : exp a i = Ideal.exp (a i) := rfl

/-! ## The two keepdims sums and the broadcast into the block -/

/-- Summing a `[8, 16384]` vector over the lanes, then over the rows (each sum keeping a unit axis), broadcasting the
    scalar to `[1, 8, 128]` and adding it to a block: every entry gains the double sum. -/
theorem acc_add_at (src : FVec Ideal S8x16384 .f32) (acc : Vec Ideal S1x8x128 .f32)
    (h1 : S8x16384.Reduces [1] S8) (hφ1 : FKind.Formats .f32) (hacc1 : (0x00000000#32 : BitVec 32) = FKind.add.neutral .f32 hφ1)
    (hc1 : S8.ShapeCasts S8x1)
    (h2 : S8x1.Reduces [0] S1) (hφ2 : FKind.Formats .f32) (hacc2 : (0x00000000#32 : BitVec 32) = FKind.add.neutral .f32 hφ2)
    (hc2 : S1.ShapeCasts S1x1) (hc3 : S1x1.ShapeCasts S1x1x1) (hb : S1x1x1.Broadcasts S1x8x128)
    (hc4 : S1x8x128.ShapeCasts S1x8x128) (j : S1x8x128.Idx) :
    addf (shapeCast S1x8x128 acc hc4)
      (broadcastTo S1x8x128 (shapeCast S1x1x1 (shapeCast S1x1
        (multiReduction .add [0] S1 (shapeCast S8x1 (multiReduction .add [1] S8 src 0x00000000#32 h1 hφ1 hacc1) hc1)
          0x00000000#32 h2 hφ2 hacc2) hc2) hc3) hb) j
      = acc j + ∑ r : Fin 8, ∑ l : Fin 16384, src (ix2 r l) := by
  rw [addf_apply, shapeCast_self]
  refine congrArg (acc j + ·) ?_
  refine (broadcastTo_apply _ hb j (ix3 (0 : Fin 1) (0 : Fin 1) (0 : Fin 1)) fun a => match a with
    | ⟨0, _⟩ => rfl | ⟨1, _⟩ => rfl | ⟨2, _⟩ => rfl).trans ?_
  refine (shapeCast_apply _ hc3 (ix3 (0 : Fin 1) (0 : Fin 1) (0 : Fin 1)) (ix2 (0 : Fin 1) (0 : Fin 1)) (by
    rw [Shape.rowMajor_val_two, Shape.rowMajor_val_three]; rfl)).trans ?_
  refine (shapeCast_apply _ hc2 (ix2 (0 : Fin 1) (0 : Fin 1)) (ix1 (0 : Fin 1)) (by
    rw [Shape.rowMajor_val_one, Shape.rowMajor_val_two]; rfl)).trans ?_
  refine (Ideal.multiReduction_add_single _ 0x00000000#32 h2 hφ2 hacc2 (ix1 (0 : Fin 1))).trans ?_
  refine Finset.sum_congr rfl fun r _ => ?_
  refine (shapeCast_apply _ hc1 _ (ix1 r) (by
    rw [Shape.rowMajor_val_one, Shape.rowMajor_val_two]; show r.val = r.val * 1 + 0; omega)).trans ?_
  refine (Ideal.multiReduction_add_single src 0x00000000#32 h1 hφ1 hacc1 (ix1 r)).trans ?_
  refine Finset.sum_congr rfl fun l _ => congrArg src ?_
  funext a
  match a with
  | ⟨0, _⟩ => rfl
  | ⟨1, _⟩ => rfl

/-! ## The loss term of a (row, lane) pair -/

/-- The loss accumulator after a point, at any entry of the block: the previous entry plus the tile's loss sum. -/
theorem lossStep_at (x0 x1 : Vec Ideal S8x16384x4 .f32) (x2 : Vec Ideal S16384x4 .f32) (x3 : Vec Ideal S8x16384 .f32)
    (acc : Vec Ideal S1x8x128 .f32) (j : S1x8x128.Idx) :
    Acc.lossStep x0 x1 x2 x3 acc j = acc j + tileLoss x0 x1 x2 x3 := by
  unfold Acc.lossStep k0_pay2
  refine (acc_add_at _ acc _ _ _ _ _ _ _ _ _ _ _ j).trans ?_
  refine congrArg (acc j + ·) ?_
  unfold tileLoss
  refine Finset.sum_congr rfl fun r _ => Finset.sum_congr rfl fun l _ => ?_
  simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, mulf_apply, addf_apply, subf_apply, divf_apply, maximumf_apply, minimumf_apply, broadcast_apply,
    exp_at, shapeCast_self, row_bcast, anchor_col0, anchor_col1, anchor_col2, anchor_col3, box_col0, box_col1, box_col2,
    box_col3]
  rfl

/-- The count accumulator after a point, at any entry of the block: the previous entry plus the tile's mask sum. -/
theorem posStep_at (x3 : Vec Ideal S8x16384 .f32) (acc : Vec Ideal S1x8x128 .f32) (j : S1x8x128.Idx) :
    Acc.posStep x3 acc j = acc j + tilePos x3 := by
  unfold Acc.posStep k0_pay3
  refine (acc_add_at _ acc _ _ _ _ _ _ _ _ _ _ _ j).trans ?_
  refine congrArg (acc j + ·) ?_
  unfold tilePos
  refine Finset.sum_congr rfl fun r _ => Finset.sum_congr rfl fun l _ => ?_
  simp only [k0_pay1, shapeCast_self]

end Cert.KernelIdeal.Tile

end
-- ==== Proof.Running.lean ====
/-
  The running sum inside one group of 16 consecutive grid points. Point `n` belongs to group `n / 16` and is its
  tile `n % 16`; after point `n` an accumulator that is reset at tile 0 and added to at every tile holds the sum of
  the tile values of its group up to and including tile `n % 16`.
-/
import Mathlib.Algebra.BigOperators.Fin
import Mathlib.Tactic.NormNum

namespace Cert.Spec

variable {M : Type*} [AddCommMonoid M]

/-- The sum of the tile values of point `n`'s group up to point `n`. -/
def run (S : ℕ → M) (n : ℕ) : M := ∑ k ∈ Finset.range (n % 16 + 1), S (16 * (n / 16) + k)

theorem run_zero (S : ℕ → M) : run S 0 = S 0 := by
  unfold run
  simp

/-- At a group's first tile the running sum is that tile's value. -/
theorem run_first (S : ℕ → M) (n : ℕ) (h : n % 16 = 0) : run S n = S n := by
  unfold run
  have h2 : 16 * (n / 16) = n := by omega
  rw [h, h2]
  simp

/-- At any other tile it is the previous running sum plus the tile's value. -/
theorem run_next (S : ℕ → M) (n : ℕ) (h : ¬(n + 1) % 16 = 0) : run S (n + 1) = run S n + S (n + 1) := by
  unfold run
  have h1 : (n + 1) / 16 = n / 16 := by omega
  have h2 : (n + 1) % 16 = n % 16 + 1 := by omega
  have h3 : 16 * (n / 16) + (n % 16 + 1) = n + 1 := by omega
  rw [h1, h2, Finset.sum_range_succ, h3]

/-- After a group's last tile it is the sum over the group's 16 tiles. -/
theorem run_last (S : ℕ → M) (n : ℕ) (h : n % 16 = 15) : run S n = ∑ k ∈ Finset.range 16, S (16 * (n / 16) + k) := by
  unfold run
  rw [h]

end Cert.Spec
-- ==== Proof.Chain.lean ====
/-
  What the two accumulator blocks hold after every grid point, and what the two result arrays end holding.

  Grid point `n` is tile `n % 16` of batch group `n / 16`. After it the loss block holds, in every entry, the sum of
  the tile losses of the group's tiles `0 .. n % 16` (and the count block the same sum of tile mask counts): by
  induction on the point, from the two case values. The blocks are written back after each group's last tile, so
  entry `(g, ·, ·)` of each `[2, 8, 128]` result array is the sum over the 16 tiles of group `g`.
-/
import proofs.«123826_j7413113553025_2_alg».proof.Proof.Cases
import proofs.«123826_j7413113553025_2_alg».proof.Proof.TileValue
import proofs.«123826_j7413113553025_2_alg».proof.Proof.Running
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.Spec

variable (m : (ℓ : Loc nD τ sig) → Buf (Elt Ideal) ℓ)

/-! ## The tile a point reads, and its two sums -/

/-- The deltas tile of point `t`. -/
def blkP (c : Dev nD) (t : Fin cfg0.N) : Vec Ideal S8x16384x4 .f32 := iblk m c 0 t
/-- The targets tile of point `t`. -/
def blkT (c : Dev nD) (t : Fin cfg0.N) : Vec Ideal S8x16384x4 .f32 := iblk m c 1 t
/-- The anchors tile of point `t`. -/
def blkA (c : Dev nD) (t : Fin cfg0.N) : Vec Ideal S16384x4 .f32 := iblk m c 2 t
/-- The mask tile of point `t`. -/
def blkM (c : Dev nD) (t : Fin cfg0.N) : Vec Ideal S8x16384 .f32 := iblk m c 3 t

/-- The loss sum of point `n`'s tile (zero past the grid). -/
def ptLoss (c : Dev nD) (n : ℕ) : EReal :=
  if h : n < cfg0.N then tileLoss (blkP m c ⟨n, h⟩) (blkT m c ⟨n, h⟩) (blkA m c ⟨n, h⟩) (blkM m c ⟨n, h⟩) else 0
/-- The mask sum of point `n`'s tile (zero past the grid). -/
def ptPos (c : Dev nD) (n : ℕ) : EReal := if h : n < cfg0.N then tilePos (blkM m c ⟨n, h⟩) else 0

/-! ## One point, in each case -/

/-- A group's first tile leaves zero plus the tile's sums. -/
theorem step_A (c : Dev nD) (t : Fin cfg0.N) (h0 : t.val % 16 = 0) :
    outsAt0 m c t.val t.isLt
      = (Acc.lossStep (blkP m c t) (blkT m c t) (blkA m c t) (blkM m c t) Acc.zeroBlock, Acc.posStep (blkM m c t) Acc.zeroBlock) := by
  rw [outsAt0_A m c t h0]
  exact congrArg₂ Prod.mk
    (Acc.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t))
    (Acc.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t))

/-- Any other tile leaves what the point before left plus the tile's sums. -/
theorem step_B (c : Dev nD) (t : Fin cfg0.N) (h0 : ¬t.val % 16 = 0) :
    outsAt0 m c t.val t.isLt
      = (Acc.lossStep (blkP m c t) (blkT m c t) (blkA m c t) (blkM m c t) (outsAt0 m c (t.val - 1) (Nat.lt_of_le_of_lt (Nat.sub_le _ _) t.isLt)).1,
         Acc.posStep (blkM m c t) (outsAt0 m c (t.val - 1) (Nat.lt_of_le_of_lt (Nat.sub_le _ _) t.isLt)).2) := by
  rw [outsAt0_B m c t h0]
  exact congrArg₂ Prod.mk
    (Acc.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1 (outsAt0 m c (t.val - 1) (Nat.lt_of_le_of_lt (Nat.sub_le _ _) t.isLt)).2)
    (Acc.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1 (outsAt0 m c (t.val - 1) (Nat.lt_of_le_of_lt (Nat.sub_le _ _) t.isLt)).2)

theorem zeroBlock_at (j : S1x8x128.Idx) : (Acc.zeroBlock (F := Ideal)) j = 0 := Ideal.ofBits_zero_f32

theorem ptLoss_of_lt (c : Dev nD) (n : ℕ) (h : n < cfg0.N) :
    ptLoss m c n = tileLoss (blkP m c ⟨n, h⟩) (blkT m c ⟨n, h⟩) (blkA m c ⟨n, h⟩) (blkM m c ⟨n, h⟩) := dif_pos h
theorem ptPos_of_lt (c : Dev nD) (n : ℕ) (h : n < cfg0.N) : ptPos m c n = tilePos (blkM m c ⟨n, h⟩) := dif_pos h

/-! ## Every point: the blocks hold the running sums of the point's group -/

theorem outs_eq (c : Dev nD) : ∀ (n : ℕ) (h : n < cfg0.N),
    (∀ j, (outsAt0 m c n h).1 j = run (ptLoss m c) n) ∧ (∀ j, (outsAt0 m c n h).2 j = run (ptPos m c) n)
  | 0, h => by
    have e : outsAt0 m c 0 h = _ := step_A m c ⟨0, h⟩ rfl
    rw [e]
    refine ⟨fun j => ?_, fun j => ?_⟩
    · show Acc.lossStep (blkP m c ⟨0, h⟩) (blkT m c ⟨0, h⟩) (blkA m c ⟨0, h⟩) (blkM m c ⟨0, h⟩) Acc.zeroBlock j = _
      rw [Tile.lossStep_at, zeroBlock_at, zero_add, run_zero, ptLoss_of_lt m c 0 h]
    · show Acc.posStep (blkM m c ⟨0, h⟩) Acc.zeroBlock j = _
      rw [Tile.posStep_at, zeroBlock_at, zero_add, run_zero, ptPos_of_lt m c 0 h]
  | n + 1, h => by
    obtain ⟨ih1, ih2⟩ := outs_eq c n (Nat.lt_of_succ_lt h)
    by_cases h0 : (n + 1) % 16 = 0
    · have e : outsAt0 m c (n + 1) h = _ := step_A m c ⟨n + 1, h⟩ h0
      rw [e]
      refine ⟨fun j => ?_, fun j => ?_⟩
      · show Acc.lossStep (blkP m c ⟨n + 1, h⟩) (blkT m c ⟨n + 1, h⟩) (blkA m c ⟨n + 1, h⟩) (blkM m c ⟨n + 1, h⟩) Acc.zeroBlock j = _
        rw [Tile.lossStep_at, zeroBlock_at, zero_add, run_first _ _ h0, ptLoss_of_lt m c (n + 1) h]
      · show Acc.posStep (blkM m c ⟨n + 1, h⟩) Acc.zeroBlock j = _
        rw [Tile.posStep_at, zeroBlock_at, zero_add, run_first _ _ h0, ptPos_of_lt m c (n + 1) h]
    · have e : outsAt0 m c (n + 1) h = _ := step_B m c ⟨n + 1, h⟩ h0
      rw [e]
      refine ⟨fun j => ?_, fun j => ?_⟩
      · show Acc.lossStep (blkP m c ⟨n + 1, h⟩) (blkT m c ⟨n + 1, h⟩) (blkA m c ⟨n + 1, h⟩) (blkM m c ⟨n + 1, h⟩)
          (outsAt0 m c n (Nat.lt_of_succ_lt h)).1 j = _
        rw [Tile.lossStep_at, ih1 j, run_next _ _ h0, ptLoss_of_lt m c (n + 1) h]
      · show Acc.posStep (blkM m c ⟨n + 1, h⟩) (outsAt0 m c n (Nat.lt_of_succ_lt h)).2 j = _
        rw [Tile.posStep_at, ih2 j, run_next _ _ h0, ptPos_of_lt m c (n + 1) h]

end Cert.KernelIdeal.Run

end
-- ==== Proof.Regroup.lean ====
/-
  Regrouping a double sum over `[16, 262144]`: batch rows as 2 groups of 8, anchors as 16 tiles of 16384. Only
  commutativity and associativity of the sum are used, so it holds in any commutative monoid (on the extended reals
  no finiteness is needed).
-/
import Mathlib.Algebra.BigOperators.Fin
import Mathlib.Logic.Equiv.Fin.Basic
import Mathlib.Tactic.NormNum

namespace Cert.Spec

/-- A sum over `Fin n` with `n = a * b` is the double sum over the quotient and the remainder by `b`. -/
theorem sum_fin_split {M : Type*} [AddCommMonoid M] {n : ℕ} (a b : ℕ) (h : a * b = n) (f : Fin n → M)
    (hb : ∀ (i : Fin a) (j : Fin b), b * i.val + j.val < n) :
    ∑ x, f x = ∑ i : Fin a, ∑ j : Fin b, f ⟨b * i.val + j.val, hb i j⟩ := by
  subst h
  rw [← Equiv.sum_comp finProdFinEquiv, Fintype.sum_prod_type]
  refine Finset.sum_congr rfl fun i _ => Finset.sum_congr rfl fun j _ => ?_
  congr 1
  apply Fin.ext
  show j.val + b * i.val = b * i.val + j.val
  omega

/-- Batch row `8 g + r`. -/
def row (g : Fin 2) (r : Fin 8) : Fin 16 := ⟨8 * g.val + r.val, by have := g.isLt; have := r.isLt; omega⟩
/-- Anchor `16384 i + l`. -/
def col (i : Fin 16) (l : Fin 16384) : Fin 262144 := ⟨16384 * i.val + l.val, by have := i.isLt; have := l.isLt; omega⟩

theorem rows_eq : 2 * 8 = 16 := by norm_num
theorem cols_eq : 16 * 16384 = 262144 := by norm_num

/-- The batch rows as 2 groups of 8. -/
theorem sum_rows {M : Type*} [AddCommMonoid M] (f : Fin 16 → M) : ∑ B, f B = ∑ g : Fin 2, ∑ r : Fin 8, f (row g r) :=
  sum_fin_split 2 8 rows_eq f (fun i j => by have := i.isLt; have := j.isLt; omega)

/-- The anchors as 16 tiles of 16384. -/
theorem sum_cols {M : Type*} [AddCommMonoid M] (f : Fin 262144 → M) :
    ∑ N, f N = ∑ i : Fin 16, ∑ l : Fin 16384, f (col i l) :=
  sum_fin_split 16 16384 cols_eq f (fun i j => by have := i.isLt; have := j.isLt; omega)

/-- The whole double sum, regrouped by (group, tile) and inside each by (row, lane). -/
theorem sum_regroup {M : Type*} [AddCommMonoid M] (f : Fin 16 → Fin 262144 → M) :
    ∑ B : Fin 16, ∑ N : Fin 262144, f B N
      = ∑ g : Fin 2, ∑ i : Fin 16, ∑ r : Fin 8, ∑ l : Fin 16384, f (row g r) (col i l) := by
  rw [sum_rows]
  refine Finset.sum_congr rfl fun g _ => ?_
  exact (Finset.sum_congr rfl fun r _ => sum_cols (fun N => f (row g r) N)).trans Finset.sum_comm

end Cert.Spec
-- ==== Proof.Blocks.lean ====
/-
  Where a grid point's tiles sit in the whole arrays. Point `t = 16 g + i` (batch group `g`, tile `i`) reads batch rows
  `8 g .. 8 g + 7` and anchors `16384 i .. 16384 i + 16383`: entry `(r, l, k)` of its deltas tile is entry
  `(8 g + r, 16384 i + l, k)` of the deltas array, and likewise for the targets, the anchors and the mask (which the
  call finds already converted to numbers). So a tile's loss term at `(r, l)` is the whole-array loss term at
  `(8 g + r, 16384 i + l)`.
-/
import proofs.«123826_j7413113553025_2_alg».proof.Proof.Chain
import proofs.«123826_j7413113553025_2_alg».proof.Proof.Regroup
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.Spec Idealize.ShloMosaic.ValueIdx

variable (m : (ℓ : Loc nD τ sig) → Buf (Elt Ideal) ℓ)

/-- The printed index maps of the four input windows, decided over the grid. -/
theorem idx_in : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 2) = t.val % 16 ∧ win0_2.index t (1 : Fin 2) = 0
    ∧ win0_3.index t (0 : Fin 2) = t.val / 16 ∧ win0_3.index t (1 : Fin 2) = t.val % 16 :=
  (by decide +kernel : ∀ t : Fin grid0.N, _)

/-- The mask as the call finds it: the boolean argument converted to numbers. -/
def maskArr (c : Dev nD) : Vec Ideal S16x262144 .f32 :=
  uitofp (F := Ideal) (s := S16x262144) (w := 1) .f32 (m ((c : Thread nD τ).loc main_arg3))

theorem V_mask (c : Dev nD) : (V m c main_v0 : S16x262144.Idx → EReal) = maskArr m c := by
  show StableHlo.after hostOps0 (fun b => m (c, b)) (Proc.devRef .tc main_v0) = _
  after_results
  rfl

theorem blkP_at (c : Dev nD) (t : Fin cfg0.N) (g : Fin 2) (i : Fin 16) (ht : t.val = 16 * g.val + i.val)
    (r : Fin 8) (l : Fin 16384) (k : Fin 4) :
    blkP m c t (ix3 r l k) = m ((c : Thread nD τ).loc main_arg0) (ix3 (row g r) (col i l) k) := by
  unfold blkP iblk
  rw [View.read_apply]
  show V m c main_arg0 (((cfg0.win 0).blk t).view.emb (ix3 r l k)) = _
  rw [V_main_arg0]
  refine congrArg (m ((c : Thread nD τ).loc main_arg0)) ?_
  funext a
  apply Fin.ext
  obtain ⟨e0, e1, e2, -⟩ := idx_in t
  have hg := g.isLt; have hi := i.isLt
  match a with
  | ⟨0, _⟩ => show win0_0.index t (0 : Fin 3) * 8 + 1 * r.val = 8 * g.val + r.val; omega
  | ⟨1, _⟩ => show win0_0.index t (1 : Fin 3) * 16384 + 1 * l.val = 16384 * i.val + l.val; omega
  | ⟨2, _⟩ => show win0_0.index t (2 : Fin 3) * 4 + 1 * k.val = k.val; omega

theorem blkT_at (c : Dev nD) (t : Fin cfg0.N) (g : Fin 2) (i : Fin 16) (ht : t.val = 16 * g.val + i.val)
    (r : Fin 8) (l : Fin 16384) (k : Fin 4) :
    blkT m c t (ix3 r l k) = m ((c : Thread nD τ).loc main_arg1) (ix3 (row g r) (col i l) k) := by
  unfold blkT iblk
  rw [View.read_apply]
  show V m c main_arg1 (((cfg0.win 1).blk t).view.emb (ix3 r l k)) = _
  rw [V_main_arg1]
  refine congrArg (m ((c : Thread nD τ).loc main_arg1)) ?_
  funext a
  apply Fin.ext
  obtain ⟨-, -, -, e0, e1, e2, -⟩ := idx_in t
  have hg := g.isLt; have hi := i.isLt
  match a with
  | ⟨0, _⟩ => show win0_1.index t (0 : Fin 3) * 8 + 1 * r.val = 8 * g.val + r.val; omega
  | ⟨1, _⟩ => show win0_1.index t (1 : Fin 3) * 16384 + 1 * l.val = 16384 * i.val + l.val; omega
  | ⟨2, _⟩ => show win0_1.index t (2 : Fin 3) * 4 + 1 * k.val = k.val; omega

theorem blkA_at (c : Dev nD) (t : Fin cfg0.N) (g : Fin 2) (i : Fin 16) (ht : t.val = 16 * g.val + i.val)
    (l : Fin 16384) (k : Fin 4) :
    blkA m c t (ix2 l k) = m ((c : Thread nD τ).loc main_arg2) (ix2 (col i l) k) := by
  unfold blkA iblk
  rw [View.read_apply]
  show V m c main_arg2 (((cfg0.win 2).blk t).view.emb (ix2 l k)) = _
  rw [V_main_arg2]
  refine congrArg (m ((c : Thread nD τ).loc main_arg2)) ?_
  funext a
  apply Fin.ext
  obtain ⟨-, -, -, -, -, -, e0, e1, -⟩ := idx_in t
  have hg := g.isLt; have hi := i.isLt
  match a with
  | ⟨0, _⟩ => show win0_2.index t (0 : Fin 2) * 16384 + 1 * l.val = 16384 * i.val + l.val; omega
  | ⟨1, _⟩ => show win0_2.index t (1 : Fin 2) * 4 + 1 * k.val = k.val; omega

theorem blkM_at (c : Dev nD) (t : Fin cfg0.N) (g : Fin 2) (i : Fin 16) (ht : t.val = 16 * g.val + i.val)
    (r : Fin 8) (l : Fin 16384) :
    blkM m c t (ix2 r l) = maskArr m c (ix2 (row g r) (col i l)) := by
  unfold blkM iblk
  rw [View.read_apply]
  show V m c main_v0 (((cfg0.win 3).blk t).view.emb (ix2 r l)) = _
  rw [V_mask]
  refine congrArg (maskArr m c) ?_
  funext a
  apply Fin.ext
  obtain ⟨-, -, -, -, -, -, -, -, e0, e1⟩ := idx_in t
  have hg := g.isLt; have hi := i.isLt
  match a with
  | ⟨0, _⟩ => show win0_3.index t (0 : Fin 2) * 8 + 1 * r.val = 8 * g.val + r.val; omega
  | ⟨1, _⟩ => show win0_3.index t (1 : Fin 2) * 16384 + 1 * l.val = 16384 * i.val + l.val; omega

/-- A tile's loss term is the whole-array loss term at the tile's place. -/
theorem tileTerm_eq (c : Dev nD) (t : Fin cfg0.N) (g : Fin 2) (i : Fin 16) (ht : t.val = 16 * g.val + i.val)
    (r : Fin 8) (l : Fin 16384) :
    tileTerm (blkP m c t) (blkT m c t) (blkA m c t) (blkM m c t) r l
      = lossAt (m ((c : Thread nD τ).loc main_arg0)) (m ((c : Thread nD τ).loc main_arg1))
          (m ((c : Thread nD τ).loc main_arg2)) (maskArr m c) (row g r) (col i l) := by
  unfold tileTerm lossAt
  simp only [blkP_at m c t g i ht, blkT_at m c t g i ht, blkA_at m c t g i ht, blkM_at m c t g i ht]

end Cert.KernelIdeal.Run

end
-- ==== Proof.Arrays.lean ====
/-
  The two result arrays of the pipelined call, each `[2, 8, 128]`: after the run, entry `(g, ·, ·)` of the first holds
  the loss sum over the 16 tiles of batch group `g`, and of the second the mask sum. A block `[1, 8, 128]` at block
  index `(g, 0, 0)` is written back after the group's last tile (point `16 g + 15`), and the two blocks cover the array.
-/
import proofs.«123826_j7413113553025_2_alg».proof.Proof.Chain

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.Spec

variable (m : (ℓ : Loc nD τ sig) → Buf (Elt Ideal) ℓ)

/-- The printed index maps of the two output windows, decided over the grid: block `(t / 16, 0, 0)`. -/
theorem idx_out : ∀ t : Fin cfg0.N, win0_4.index t (0 : Fin 3) = t.val / 16 ∧ win0_4.index t (1 : Fin 3) = 0
    ∧ win0_4.index t (2 : Fin 3) = 0 ∧ win0_5.index t (0 : Fin 3) = t.val / 16 ∧ win0_5.index t (1 : Fin 3) = 0
    ∧ win0_5.index t (2 : Fin 3) = 0 :=
  (by decide +kernel : ∀ t : Fin grid0.N, _)

/-- Entry `(g, ·, ·)` of the array is the sum over the 16 tiles of batch group `g`. -/
def lossArr (c : Dev nD) : Vec Ideal S2x8x128 .f32 :=
  fun i => (∑ k ∈ Finset.range 16, ptLoss m c (16 * (i 0).val + k) : EReal)

/-- What a group's last tile writes back is block `g` of that array. -/
theorem flushed4_eq (c : Dev nD) (t : Fin cfg0.N) (hf : (cfg0.win 4).flush t = true) :
    (dats m 0 c).flushed 4 t = ((cfg0.win 4).blk t).view.read (Elt Ideal) (lossArr m c) := by
  have h15 : t.val % 16 = 15 := (flush0_4 t).mp hf
  show (cfg0.win 4).cut (grid0.coords t) ((dats m 0 c).after 4 t) = _
  rw [after0_4]
  funext y
  rw [View.read_apply]
  show (outsAt0 m c t.val t.isLt).1 y = lossArr m c (((cfg0.win 4).blk t).view.emb y)
  rw [(outs_eq m c t.val t.isLt).1 y, run_last _ _ h15]
  show _ = ∑ k ∈ Finset.range 16, ptLoss m c (16 * ((((cfg0.win 4).blk t).view.emb y) 0).val + k)
  have e : ((((cfg0.win 4).blk t).view.emb y) 0).val = t.val / 16 := by
    show win0_4.index t (0 : Fin 3) * 1 + 1 * (y 0).val = t.val / 16
    have h0 := (idx_out t).1
    have hy : (y 0).val < 1 := (y 0).isLt
    omega
  rw [e]

/-- An index of the array is in point `t`'s block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v1_0).slice (win0_4.rect t)).set ↔ _
  rw [View.set_slice_whole, Rect.mem_set_unit]
  exact Iff.rfl

/-- The array after the run: the group sums (the two groups' last tiles cover it). -/
theorem final4 (c : Dev nD) : (dats m 0 c).arrAt 4 cfg0.N = lossArr m c :=
  (dats m 0 c).arrAt_eq_of_cover 4 (lossArr m c) (flushed4_eq m c) fun i => by
    have hN : cfg0.N = 32 := N_0
    have hi0 : (i 0).val < 2 := (i 0).isLt
    have hi1 : (i 1).val < 8 := (i 1).isLt
    have hi2 : (i 2).val < 128 := (i 2).isLt
    obtain ⟨t, ht⟩ : ∃ t : Fin cfg0.N, t.val = 16 * (i 0).val + 15 := ⟨⟨16 * (i 0).val + 15, by rw [hN]; omega⟩, rfl⟩
    refine ⟨t, (flush0_4 t).mpr (by omega), ?_⟩
    rw [mem_blk4]
    have f0 := (idx_out t).1
    have f1 := (idx_out t).2.1
    have f2 := (idx_out t).2.2.1
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 8 ≤ (i 1).val ∧ (i 1).val < win0_4.index t (1 : Fin 3) * 8 + 8; omega
    | ⟨2, _⟩ => show win0_4.index t (2 : Fin 3) * 128 ≤ (i 2).val ∧ (i 2).val < win0_4.index t (2 : Fin 3) * 128 + 128; omega

/-- Entry `(g, ·, ·)` of the array is the sum over the 16 tiles of batch group `g`. -/
def posArr (c : Dev nD) : Vec Ideal S2x8x128 .f32 :=
  fun i => (∑ k ∈ Finset.range 16, ptPos m c (16 * (i 0).val + k) : EReal)

/-- What a group's last tile writes back is block `g` of that array. -/
theorem flushed5_eq (c : Dev nD) (t : Fin cfg0.N) (hf : (cfg0.win 5).flush t = true) :
    (dats m 0 c).flushed 5 t = ((cfg0.win 5).blk t).view.read (Elt Ideal) (posArr m c) := by
  have h15 : t.val % 16 = 15 := (flush0_5 t).mp hf
  show (cfg0.win 5).cut (grid0.coords t) ((dats m 0 c).after 5 t) = _
  rw [after0_5]
  funext y
  rw [View.read_apply]
  show (outsAt0 m c t.val t.isLt).2 y = posArr m c (((cfg0.win 5).blk t).view.emb y)
  rw [(outs_eq m c t.val t.isLt).2 y, run_last _ _ h15]
  show _ = ∑ k ∈ Finset.range 16, ptPos m c (16 * ((((cfg0.win 5).blk t).view.emb y) 0).val + k)
  have e : ((((cfg0.win 5).blk t).view.emb y) 0).val = t.val / 16 := by
    show win0_5.index t (0 : Fin 3) * 1 + 1 * (y 0).val = t.val / 16
    have h0 := (idx_out t).2.2.2.1
    have hy : (y 0).val < 1 := (y 0).isLt
    omega
  rw [e]

/-- An index of the array is in point `t`'s block iff each coordinate is in the block's range on its axis. -/
theorem mem_blk5 (t : Fin cfg0.N) (i : S2x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v1_1).slice (win0_5.rect t)).set ↔ _
  rw [View.set_slice_whole, Rect.mem_set_unit]
  exact Iff.rfl

/-- The array after the run: the group sums (the two groups' last tiles cover it). -/
theorem final5 (c : Dev nD) : (dats m 0 c).arrAt 5 cfg0.N = posArr m c :=
  (dats m 0 c).arrAt_eq_of_cover 5 (posArr m c) (flushed5_eq m c) fun i => by
    have hN : cfg0.N = 32 := N_0
    have hi0 : (i 0).val < 2 := (i 0).isLt
    have hi1 : (i 1).val < 8 := (i 1).isLt
    have hi2 : (i 2).val < 128 := (i 2).isLt
    obtain ⟨t, ht⟩ : ∃ t : Fin cfg0.N, t.val = 16 * (i 0).val + 15 := ⟨⟨16 * (i 0).val + 15, by rw [hN]; omega⟩, rfl⟩
    refine ⟨t, (flush0_5 t).mpr (by omega), ?_⟩
    rw [mem_blk5]
    have f0 := (idx_out t).2.2.2.1
    have f1 := (idx_out t).2.2.2.2.1
    have f2 := (idx_out t).2.2.2.2.2
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 8 ≤ (i 1).val ∧ (i 1).val < win0_5.index t (1 : Fin 3) * 8 + 8; omega
    | ⟨2, _⟩ => show win0_5.index t (2 : Fin 3) * 128 ≤ (i 2).val ∧ (i 2).val < win0_5.index t (2 : Fin 3) * 128 + 128; omega

end Cert.KernelIdeal.Run

end
-- ==== Proof.Tail.lean ====
/-
  The host lines after the pipelined call: entry `(g, 0, 0)` of each result array is taken for the two batch groups,
  the two are added (from zero), and the loss total is divided by `max (mask total) 1`. On the extended reals, as a
  function of the two `[2, 8, 128]` arrays.
-/
import proofs.«123826_j7413113553025_2_alg».proof.Proof.Arrays
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.Spec Idealize.ShloMosaic.ValueIdx

/-- A one-axis index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The lines after the call, as one function of the two result arrays. -/
def tailVal (a4 a5 : Vec Ideal S2x8x128 .f32) : Vec Ideal S_ .f32 :=
  Host.divf (F := Ideal)
    (Host.reduceAdd (F := Ideal)
      (shapeCast S2 (extractStridedSlice S2x1x1 ![0, 0, 0] a4 slices_S2x8x128_S2x1x1_0_0_0) shapeCasts_S2x1x1_S2)
      (constant (F := Ideal) S_ .f32 0x00000000#32) reducesTo_S2_S_d0 h_S_)
    (maximumf
      (Host.reduceAdd (F := Ideal)
        (shapeCast S2 (extractStridedSlice S2x1x1 ![0, 0, 0] a5 slices_S2x8x128_S2x1x1_0_0_0) shapeCasts_S2x1x1_S2)
        (constant (F := Ideal) S_ .f32 0x00000000#32) reducesTo_S2_S_d0 h_S_)
      (constant (F := Ideal) S_ .f32 0x3F800000#32))

/-- Entry `(g, 0, 0)` of an array for the two groups, added from zero: the sum over the groups. -/
theorem groupSum_at (a : Vec Ideal S2x8x128 .f32) (i : S_.Idx) :
    Host.reduceAdd (F := Ideal)
      (shapeCast S2 (extractStridedSlice S2x1x1 ![0, 0, 0] a slices_S2x8x128_S2x1x1_0_0_0) shapeCasts_S2x1x1_S2)
      (constant (F := Ideal) S_ .f32 0x00000000#32) reducesTo_S2_S_d0 h_S_ i
      = ∑ g : Fin 2, a (ix3 g (0 : Fin 8) (0 : Fin 128)) := by
  simp only [Host.reduceAdd, Ideal.hostReduceAdd_def]
  refine (Ideal.hostReduceAdd_total reducesTo_S2_S_d0 (fun b => b.elim0) _ _ i).trans ?_
  rw [sum_idx1]
  show Ideal.ofBits .f32 0x00000000#32 + _ = _
  rw [Ideal.ofBits_zero_f32, zero_add]
  refine Finset.sum_congr rfl fun g _ => ?_
  refine (shapeCast_apply _ shapeCasts_S2x1x1_S2 (ix1 g) (ix3 g (0 : Fin 1) (0 : Fin 1)) (by
    rw [Shape.rowMajor_val_three, Shape.rowMajor_val_one]; show (g.val * 1 + 0) * 1 + 0 = g.val; omega)).trans ?_
  exact extractStridedSlice_apply _ a _ (ix3 g (0 : Fin 1) (0 : Fin 1)) (ix3 g (0 : Fin 8) (0 : Fin 128)) (fun b => match b with
    | ⟨0, _⟩ => by show g.val = 0 + g.val; omega
    | ⟨1, _⟩ => rfl
    | ⟨2, _⟩ => rfl)

/-- The tail at its one index: the quotient of the two group-sum totals. -/
theorem tailVal_at (a4 a5 : Vec Ideal S2x8x128 .f32) (i : S_.Idx) :
    tailVal a4 a5 i = Ideal.div (∑ g : Fin 2, a4 (ix3 g (0 : Fin 8) (0 : Fin 128)))
      (max (∑ g : Fin 2, a5 (ix3 g (0 : Fin 8) (0 : Fin 128))) one) := by
  unfold tailVal
  show Ideal.div (Host.reduceAdd (F := Ideal) _ _ reducesTo_S2_S_d0 h_S_ i)
    (max (Host.reduceAdd (F := Ideal) _ _ reducesTo_S2_S_d0 h_S_ i) (Ideal.ofBits .f32 0x3F800000#32)) = _
  rw [groupSum_at, groupSum_at]

variable (m : (ℓ : Loc nD τ sig) → Buf (Elt Ideal) ℓ)

/-- The result buffer after the run is the tail of the two arrays of group sums. -/
theorem tail_eq (c : Dev nD) :
    Pipeline.afterTail₀ cfgs (dats m) 0 (V0 m) [hostOps1] c main_v9 = tailVal (lossArr m c) (posArr m c) := by
  unfold Pipeline.afterTail₀
  show StableHlo.after hostOps1 _ (Proc.devRef .tc main_v9) = _
  after_results
  have e4 : Pipeline.withArrays (cfgs 0).spec c (V0 m c) (fun w => (dats m 0 c).arrAt w (cfgs 0).N) (Proc.devRef .tc main_v1_0)
      = lossArr m c := (Pipeline.withArrays_arr spec0 launch0.win.arr_inj c _ _ 4).trans (final4 m c)
  have e5 : Pipeline.withArrays (cfgs 0).spec c (V0 m c) (fun w => (dats m 0 c).arrAt w (cfgs 0).N) (Proc.devRef .tc main_v1_1)
      = posArr m c := (Pipeline.withArrays_arr spec0 launch0.win.arr_inj c _ _ 5).trans (final5 m c)
  rw [e4, e5]
  rfl

end Cert.KernelIdeal.Run

end
-- ==== Proof.KernelValue.lean ====
/-
  The kernel's result. Each result array's entry `(g, 0, 0)` is the sum over the 16 tiles of batch group `g`; the two
  groups' entries added give the sum over all `(b, n)` (a regrouping of a finite sum, which needs only that addition
  on the extended reals is commutative and associative); the host's last lines divide the loss total by
  `max (mask total) 1`. So the run ends with `Spec.result` of the argument arrays in the result buffer.
-/
import proofs.«123826_j7413113553025_2_alg».proof.Proof.Blocks
import proofs.«123826_j7413113553025_2_alg».proof.Proof.Tail

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.Spec Idealize.ShloMosaic.ValueIdx

variable (m : (ℓ : Loc nD τ sig) → Buf (Elt Ideal) ℓ) (ρ : Dev nD → PrngReg)

theorem point_lt (g : Fin 2) (i : Fin 16) : 16 * g.val + i.val < cfg0.N := by
  have hN : cfg0.N = 32 := N_0
  have := g.isLt; have := i.isLt
  rw [hN]; omega

/-- Group `g`'s loss entry: the loss terms of rows `8 g ..` over all anchors, tile by tile. -/
theorem group_loss (c : Dev nD) (g : Fin 2) :
    lossArr m c (ix3 g (0 : Fin 8) (0 : Fin 128))
      = ∑ i : Fin 16, ∑ r : Fin 8, ∑ l : Fin 16384,
          lossAt (m ((c : Thread nD τ).loc main_arg0)) (m ((c : Thread nD τ).loc main_arg1))
            (m ((c : Thread nD τ).loc main_arg2)) (maskArr m c) (row g r) (col i l) := by
  show (∑ k ∈ Finset.range 16, ptLoss m c (16 * g.val + k)) = _
  rw [Finset.sum_range]
  refine Finset.sum_congr rfl fun i _ => ?_
  rw [ptLoss_of_lt m c _ (point_lt g i)]
  unfold tileLoss
  refine Finset.sum_congr rfl fun r _ => Finset.sum_congr rfl fun l _ => ?_
  exact tileTerm_eq m c ⟨_, point_lt g i⟩ g i rfl r l

/-- Group `g`'s count entry: the mask of rows `8 g ..` over all anchors. -/
theorem group_pos (c : Dev nD) (g : Fin 2) :
    posArr m c (ix3 g (0 : Fin 8) (0 : Fin 128))
      = ∑ i : Fin 16, ∑ r : Fin 8, ∑ l : Fin 16384, maskArr m c (ix2 (row g r) (col i l)) := by
  show (∑ k ∈ Finset.range 16, ptPos m c (16 * g.val + k)) = _
  rw [Finset.sum_range]
  refine Finset.sum_congr rfl fun i _ => ?_
  rw [ptPos_of_lt m c _ (point_lt g i)]
  unfold tilePos
  refine Finset.sum_congr rfl fun r _ => Finset.sum_congr rfl fun l _ => ?_
  exact blkM_at m c ⟨_, point_lt g i⟩ g i rfl r l

theorem total_loss (c : Dev nD) :
    ∑ g : Fin 2, lossArr m c (ix3 g (0 : Fin 8) (0 : Fin 128))
      = totalLoss (m ((c : Thread nD τ).loc main_arg0)) (m ((c : Thread nD τ).loc main_arg1))
          (m ((c : Thread nD τ).loc main_arg2)) (maskArr m c) := by
  unfold totalLoss
  rw [sum_regroup]
  exact Finset.sum_congr rfl fun g _ => group_loss m c g

theorem total_pos (c : Dev nD) :
    ∑ g : Fin 2, posArr m c (ix3 g (0 : Fin 8) (0 : Fin 128)) = totalPos (maskArr m c) := by
  unfold totalPos
  rw [sum_regroup]
  exact Finset.sum_congr rfl fun g _ => group_pos m c g

/-- The kernel's result, as the specification of the argument arrays. -/
abbrev resultOf (c : Dev nD) : EReal :=
  result (m ((c : Thread nD τ).loc main_arg0)) (m ((c : Thread nD τ).loc main_arg1))
    (m ((c : Thread nD τ).loc main_arg2)) (maskArr m c)

theorem result_eq (c : Dev nD) :
    Pipeline.afterTail₀ cfgs (dats m) 0 (V0 m) [hostOps1] c main_v9 = fun _ => resultOf m c := by
  rw [tail_eq]
  funext i
  rw [tailVal_at, total_loss, total_pos]
  rfl

/-- The run, read: the result buffer at the specification, the argument arrays unchanged. -/
theorem run : θ_run defs (onTc (τ := τ) (main (F := Ideal))) ⟨m, fun _ => 0, ρ⟩ fun r => ∀ c : Dev nD,
      r.2.mem ((c : Thread nD τ).loc main_v9) = (fun _ => resultOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v9 (Pipeline.mem_restRefs_of main_v9 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference's result is the specification.

  The reference decodes every predicted box from the whole anchor and delta arrays (slices, broadcasts and a
  concatenation into a `[16, 262144, 4]` array of boxes), computes the generalized IoU against the target boxes
  pointwise — the two clamps at zero written `max 0 x` — multiplies `1 - giou` by the mask, and divides the sum over
  all `(b, n)` by `max (sum of the mask) 1`. Read index by index this is `Spec.result`; the only law used beyond
  unfolding is that `max` commutes.
-/
import proofs.«123826_j7413113553025_2_alg».proof.Proof.Gen.ReferenceIdeal.Read
import proofs.«123826_j7413113553025_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Spec

/-! ## The generated index maps at indices given by coordinates -/

theorem ix_v0 (n : Fin 262144) : idx_main_v0 (ix2 n (0 : Fin 1)) = ix2 n (2 : Fin 4) := by
  funext a
  match a with
  | ⟨0, _⟩ => rfl
  | ⟨1, _⟩ => rfl
theorem ix_v2 (n : Fin 262144) : idx_main_v2 (ix2 n (0 : Fin 1)) = ix2 n (0 : Fin 4) := by
  funext a
  match a with
  | ⟨0, _⟩ => rfl
  | ⟨1, _⟩ => rfl
theorem ix_v5 (n : Fin 262144) : idx_main_v5 (ix2 n (0 : Fin 1)) = ix2 n (3 : Fin 4) := by
  funext a
  match a with
  | ⟨0, _⟩ => rfl
  | ⟨1, _⟩ => rfl
theorem ix_v7 (n : Fin 262144) : idx_main_v7 (ix2 n (0 : Fin 1)) = ix2 n (1 : Fin 4) := by
  funext a
  match a with
  | ⟨0, _⟩ => rfl
  | ⟨1, _⟩ => rfl
theorem ix_v10 (n : Fin 262144) : idx_main_v10 (ix2 n (0 : Fin 1)) = ix2 n (0 : Fin 4) := by
  funext a
  match a with
  | ⟨0, _⟩ => rfl
  | ⟨1, _⟩ => rfl
theorem ix_v15 (n : Fin 262144) : idx_main_v15 (ix2 n (0 : Fin 1)) = ix2 n (1 : Fin 4) := by
  funext a
  match a with
  | ⟨0, _⟩ => rfl
  | ⟨1, _⟩ => rfl
theorem ix_v1 (n : Fin 262144) : idx_main_v1 (ix1 n) = ix2 n (0 : Fin 1) := by
  funext a
  match a with
  | ⟨0, _⟩ => exact Fin.ext (by show n.val / 1 = n.val; omega)
  | ⟨1, _⟩ => rfl
theorem ix_v3 (n : Fin 262144) : idx_main_v3 (ix1 n) = ix2 n (0 : Fin 1) := by
  funext a
  match a with
  | ⟨0, _⟩ => exact Fin.ext (by show n.val / 1 = n.val; omega)
  | ⟨1, _⟩ => rfl
theorem ix_v6 (n : Fin 262144) : idx_main_v6 (ix1 n) = ix2 n (0 : Fin 1) := by
  funext a
  match a with
  | ⟨0, _⟩ => exact Fin.ext (by show n.val / 1 = n.val; omega)
  | ⟨1, _⟩ => rfl
theorem ix_v8 (n : Fin 262144) : idx_main_v8 (ix1 n) = ix2 n (0 : Fin 1) := by
  funext a
  match a with
  | ⟨0, _⟩ => exact Fin.ext (by show n.val / 1 = n.val; omega)
  | ⟨1, _⟩ => rfl
theorem ix_v11 (n : Fin 262144) : idx_main_v11 (ix1 n) = ix2 n (0 : Fin 1) := by
  funext a
  match a with
  | ⟨0, _⟩ => exact Fin.ext (by show n.val / 1 = n.val; omega)
  | ⟨1, _⟩ => rfl
theorem ix_v16 (n : Fin 262144) : idx_main_v16 (ix1 n) = ix2 n (0 : Fin 1) := by
  funext a
  match a with
  | ⟨0, _⟩ => exact Fin.ext (by show n.val / 1 = n.val; omega)
  | ⟨1, _⟩ => rfl
theorem ix_v20 (b : Fin 16) (n : Fin 262144) : idx_main_v20 (ix3 b n (0 : Fin 1)) = ix3 b n (0 : Fin 4) := by
  funext a
  match a with
  | ⟨0, _⟩ => rfl
  | ⟨1, _⟩ => rfl
  | ⟨2, _⟩ => rfl
theorem ix_v22 (b : Fin 16) (n : Fin 262144) : idx_main_v22 (ix3 b n (0 : Fin 1)) = ix3 b n (1 : Fin 4) := by
  funext a
  match a with
  | ⟨0, _⟩ => rfl
  | ⟨1, _⟩ => rfl
  | ⟨2, _⟩ => rfl
theorem ix_v24 (b : Fin 16) (n : Fin 262144) : idx_main_v24 (ix3 b n (0 : Fin 1)) = ix3 b n (2 : Fin 4) := by
  funext a
  match a with
  | ⟨0, _⟩ => rfl
  | ⟨1, _⟩ => rfl
  | ⟨2, _⟩ => rfl
theorem ix_v26 (b : Fin 16) (n : Fin 262144) : idx_main_v26 (ix3 b n (0 : Fin 1)) = ix3 b n (3 : Fin 4) := by
  funext a
  match a with
  | ⟨0, _⟩ => rfl
  | ⟨1, _⟩ => rfl
  | ⟨2, _⟩ => rfl
theorem ix_v65 (b : Fin 16) (n : Fin 262144) : idx_main_v65 (ix3 b n (0 : Fin 1)) = ix3 b n (2 : Fin 4) := by
  funext a
  match a with
  | ⟨0, _⟩ => rfl
  | ⟨1, _⟩ => rfl
  | ⟨2, _⟩ => rfl
theorem ix_v67 (b : Fin 16) (n : Fin 262144) : idx_main_v67 (ix3 b n (0 : Fin 1)) = ix3 b n (0 : Fin 4) := by
  funext a
  match a with
  | ⟨0, _⟩ => rfl
  | ⟨1, _⟩ => rfl
  | ⟨2, _⟩ => rfl
theorem ix_v70 (b : Fin 16) (n : Fin 262144) : idx_main_v70 (ix3 b n (0 : Fin 1)) = ix3 b n (3 : Fin 4) := by
  funext a
  match a with
  | ⟨0, _⟩ => rfl
  | ⟨1, _⟩ => rfl
  | ⟨2, _⟩ => rfl
theorem ix_v72 (b : Fin 16) (n : Fin 262144) : idx_main_v72 (ix3 b n (0 : Fin 1)) = ix3 b n (1 : Fin 4) := by
  funext a
  match a with
  | ⟨0, _⟩ => rfl
  | ⟨1, _⟩ => rfl
  | ⟨2, _⟩ => rfl
theorem ix_v76 (b : Fin 16) (n : Fin 262144) : idx_main_v76 (ix3 b n (0 : Fin 1)) = ix3 b n (2 : Fin 4) := by
  funext a
  match a with
  | ⟨0, _⟩ => rfl
  | ⟨1, _⟩ => rfl
  | ⟨2, _⟩ => rfl
theorem ix_v78 (b : Fin 16) (n : Fin 262144) : idx_main_v78 (ix3 b n (0 : Fin 1)) = ix3 b n (0 : Fin 4) := by
  funext a
  match a with
  | ⟨0, _⟩ => rfl
  | ⟨1, _⟩ => rfl
  | ⟨2, _⟩ => rfl
theorem ix_v81 (b : Fin 16) (n : Fin 262144) : idx_main_v81 (ix3 b n (0 : Fin 1)) = ix3 b n (3 : Fin 4) := by
  funext a
  match a with
  | ⟨0, _⟩ => rfl
  | ⟨1, _⟩ => rfl
  | ⟨2, _⟩ => rfl
theorem ix_v83 (b : Fin 16) (n : Fin 262144) : idx_main_v83 (ix3 b n (0 : Fin 1)) = ix3 b n (1 : Fin 4) := by
  funext a
  match a with
  | ⟨0, _⟩ => rfl
  | ⟨1, _⟩ => rfl
  | ⟨2, _⟩ => rfl
theorem ix_v21 (b : Fin 16) (n : Fin 262144) : idx_main_v21 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v23 (b : Fin 16) (n : Fin 262144) : idx_main_v23 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v25 (b : Fin 16) (n : Fin 262144) : idx_main_v25 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v27 (b : Fin 16) (n : Fin 262144) : idx_main_v27 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v66 (b : Fin 16) (n : Fin 262144) : idx_main_v66 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v68 (b : Fin 16) (n : Fin 262144) : idx_main_v68 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v71 (b : Fin 16) (n : Fin 262144) : idx_main_v71 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v73 (b : Fin 16) (n : Fin 262144) : idx_main_v73 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v77 (b : Fin 16) (n : Fin 262144) : idx_main_v77 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v79 (b : Fin 16) (n : Fin 262144) : idx_main_v79 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v82 (b : Fin 16) (n : Fin 262144) : idx_main_v82 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v84 (b : Fin 16) (n : Fin 262144) : idx_main_v84 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v96 (b : Fin 16) (n : Fin 262144) : idx_main_v96 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v98 (b : Fin 16) (n : Fin 262144) : idx_main_v98 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v112 (b : Fin 16) (n : Fin 262144) : idx_main_v112 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v114 (b : Fin 16) (n : Fin 262144) : idx_main_v114 (ix2 b n) = ix3 b n (0 : Fin 1) := by
  funext a
  match a with
  | ⟨0, _⟩ => exact Fin.ext (by show (b.val * 262144 + n.val) / 262144 = b.val; have := b.isLt; have := n.isLt; omega)
  | ⟨1, _⟩ => exact Fin.ext (by show (b.val * 262144 + n.val) / 1 % 262144 = n.val; have := b.isLt; have := n.isLt; omega)
  | ⟨2, _⟩ => rfl
theorem ix_v28 (n : Fin 262144) : idx_main_v28 (ix2 (0 : Fin 1) n) = ix1 n := by
  funext a
  match a with
  | ⟨0, _⟩ => rfl
theorem ix_v31 (n : Fin 262144) : idx_main_v31 (ix2 (0 : Fin 1) n) = ix1 n := by
  funext a
  match a with
  | ⟨0, _⟩ => rfl
theorem ix_v34 (n : Fin 262144) : idx_main_v34 (ix2 (0 : Fin 1) n) = ix1 n := by
  funext a
  match a with
  | ⟨0, _⟩ => rfl
theorem ix_v37 (n : Fin 262144) : idx_main_v37 (ix2 (0 : Fin 1) n) = ix1 n := by
  funext a
  match a with
  | ⟨0, _⟩ => rfl
theorem ix_v41 (n : Fin 262144) : idx_main_v41 (ix2 (0 : Fin 1) n) = ix1 n := by
  funext a
  match a with
  | ⟨0, _⟩ => rfl
theorem ix_v45 (n : Fin 262144) : idx_main_v45 (ix2 (0 : Fin 1) n) = ix1 n := by
  funext a
  match a with
  | ⟨0, _⟩ => rfl
theorem ix_v29 (b : Fin 16) (n : Fin 262144) : idx_main_v29 (ix2 b n) = ix2 (0 : Fin 1) n := by
  funext a
  match a with
  | ⟨0, _⟩ => rfl
  | ⟨1, _⟩ => rfl
theorem ix_v32 (b : Fin 16) (n : Fin 262144) : idx_main_v32 (ix2 b n) = ix2 (0 : Fin 1) n := by
  funext a
  match a with
  | ⟨0, _⟩ => rfl
  | ⟨1, _⟩ => rfl
theorem ix_v35 (b : Fin 16) (n : Fin 262144) : idx_main_v35 (ix2 b n) = ix2 (0 : Fin 1) n := by
  funext a
  match a with
  | ⟨0, _⟩ => rfl
  | ⟨1, _⟩ => rfl
theorem ix_v38 (b : Fin 16) (n : Fin 262144) : idx_main_v38 (ix2 b n) = ix2 (0 : Fin 1) n := by
  funext a
  match a with
  | ⟨0, _⟩ => rfl
  | ⟨1, _⟩ => rfl
theorem ix_v42 (b : Fin 16) (n : Fin 262144) : idx_main_v42 (ix2 b n) = ix2 (0 : Fin 1) n := by
  funext a
  match a with
  | ⟨0, _⟩ => rfl
  | ⟨1, _⟩ => rfl
theorem ix_v46 (b : Fin 16) (n : Fin 262144) : idx_main_v46 (ix2 b n) = ix2 (0 : Fin 1) n := by
  funext a
  match a with
  | ⟨0, _⟩ => rfl
  | ⟨1, _⟩ => rfl
theorem ix_v60 (b : Fin 16) (n : Fin 262144) : idx_main_v60 (ix3 b n (0 : Fin 1)) = ix2 b n := by
  funext a
  match a with
  | ⟨0, _⟩ => rfl
  | ⟨1, _⟩ => rfl
theorem ix_v61 (b : Fin 16) (n : Fin 262144) : idx_main_v61 (ix3 b n (0 : Fin 1)) = ix2 b n := by
  funext a
  match a with
  | ⟨0, _⟩ => rfl
  | ⟨1, _⟩ => rfl
theorem ix_v62 (b : Fin 16) (n : Fin 262144) : idx_main_v62 (ix3 b n (0 : Fin 1)) = ix2 b n := by
  funext a
  match a with
  | ⟨0, _⟩ => rfl
  | ⟨1, _⟩ => rfl
theorem ix_v63 (b : Fin 16) (n : Fin 262144) : idx_main_v63 (ix3 b n (0 : Fin 1)) = ix2 b n := by
  funext a
  match a with
  | ⟨0, _⟩ => rfl
  | ⟨1, _⟩ => rfl
theorem ix_v87_0 (b : Fin 16) (n : Fin 262144) : idx_main_v87 (ix3 b n (0 : Fin 2)) = ix3 b n (0 : Fin 4) := by
  funext a
  match a with
  | ⟨0, _⟩ => rfl
  | ⟨1, _⟩ => rfl
  | ⟨2, _⟩ => rfl
theorem ix_v87_1 (b : Fin 16) (n : Fin 262144) : idx_main_v87 (ix3 b n (1 : Fin 2)) = ix3 b n (1 : Fin 4) := by
  funext a
  match a with
  | ⟨0, _⟩ => rfl
  | ⟨1, _⟩ => rfl
  | ⟨2, _⟩ => rfl
theorem ix_v88_0 (b : Fin 16) (n : Fin 262144) : idx_main_v88 (ix3 b n (0 : Fin 2)) = ix3 b n (0 : Fin 4) := by
  funext a
  match a with
  | ⟨0, _⟩ => rfl
  | ⟨1, _⟩ => rfl
  | ⟨2, _⟩ => rfl
theorem ix_v88_1 (b : Fin 16) (n : Fin 262144) : idx_main_v88 (ix3 b n (1 : Fin 2)) = ix3 b n (1 : Fin 4) := by
  funext a
  match a with
  | ⟨0, _⟩ => rfl
  | ⟨1, _⟩ => rfl
  | ⟨2, _⟩ => rfl
theorem ix_v90_0 (b : Fin 16) (n : Fin 262144) : idx_main_v90 (ix3 b n (0 : Fin 2)) = ix3 b n (2 : Fin 4) := by
  funext a
  match a with
  | ⟨0, _⟩ => rfl
  | ⟨1, _⟩ => rfl
  | ⟨2, _⟩ => rfl
theorem ix_v90_1 (b : Fin 16) (n : Fin 262144) : idx_main_v90 (ix3 b n (1 : Fin 2)) = ix3 b n (3 : Fin 4) := by
  funext a
  match a with
  | ⟨0, _⟩ => rfl
  | ⟨1, _⟩ => rfl
  | ⟨2, _⟩ => rfl
theorem ix_v91_0 (b : Fin 16) (n : Fin 262144) : idx_main_v91 (ix3 b n (0 : Fin 2)) = ix3 b n (2 : Fin 4) := by
  funext a
  match a with
  | ⟨0, _⟩ => rfl
  | ⟨1, _⟩ => rfl
  | ⟨2, _⟩ => rfl
theorem ix_v91_1 (b : Fin 16) (n : Fin 262144) : idx_main_v91 (ix3 b n (1 : Fin 2)) = ix3 b n (3 : Fin 4) := by
  funext a
  match a with
  | ⟨0, _⟩ => rfl
  | ⟨1, _⟩ => rfl
  | ⟨2, _⟩ => rfl
theorem ix_v103_0 (b : Fin 16) (n : Fin 262144) : idx_main_v103 (ix3 b n (0 : Fin 2)) = ix3 b n (0 : Fin 4) := by
  funext a
  match a with
  | ⟨0, _⟩ => rfl
  | ⟨1, _⟩ => rfl
  | ⟨2, _⟩ => rfl
theorem ix_v103_1 (b : Fin 16) (n : Fin 262144) : idx_main_v103 (ix3 b n (1 : Fin 2)) = ix3 b n (1 : Fin 4) := by
  funext a
  match a with
  | ⟨0, _⟩ => rfl
  | ⟨1, _⟩ => rfl
  | ⟨2, _⟩ => rfl
theorem ix_v104_0 (b : Fin 16) (n : Fin 262144) : idx_main_v104 (ix3 b n (0 : Fin 2)) = ix3 b n (0 : Fin 4) := by
  funext a
  match a with
  | ⟨0, _⟩ => rfl
  | ⟨1, _⟩ => rfl
  | ⟨2, _⟩ => rfl
theorem ix_v104_1 (b : Fin 16) (n : Fin 262144) : idx_main_v104 (ix3 b n (1 : Fin 2)) = ix3 b n (1 : Fin 4) := by
  funext a
  match a with
  | ⟨0, _⟩ => rfl
  | ⟨1, _⟩ => rfl
  | ⟨2, _⟩ => rfl
theorem ix_v106_0 (b : Fin 16) (n : Fin 262144) : idx_main_v106 (ix3 b n (0 : Fin 2)) = ix3 b n (2 : Fin 4) := by
  funext a
  match a with
  | ⟨0, _⟩ => rfl
  | ⟨1, _⟩ => rfl
  | ⟨2, _⟩ => rfl
theorem ix_v106_1 (b : Fin 16) (n : Fin 262144) : idx_main_v106 (ix3 b n (1 : Fin 2)) = ix3 b n (3 : Fin 4) := by
  funext a
  match a with
  | ⟨0, _⟩ => rfl
  | ⟨1, _⟩ => rfl
  | ⟨2, _⟩ => rfl
theorem ix_v107_0 (b : Fin 16) (n : Fin 262144) : idx_main_v107 (ix3 b n (0 : Fin 2)) = ix3 b n (2 : Fin 4) := by
  funext a
  match a with
  | ⟨0, _⟩ => rfl
  | ⟨1, _⟩ => rfl
  | ⟨2, _⟩ => rfl
theorem ix_v107_1 (b : Fin 16) (n : Fin 262144) : idx_main_v107 (ix3 b n (1 : Fin 2)) = ix3 b n (3 : Fin 4) := by
  funext a
  match a with
  | ⟨0, _⟩ => rfl
  | ⟨1, _⟩ => rfl
  | ⟨2, _⟩ => rfl
theorem ix_v95 (b : Fin 16) (n : Fin 262144) : idx_main_v95 (ix3 b n (0 : Fin 1)) = ix3 b n (0 : Fin 2) := by
  funext a
  match a with
  | ⟨0, _⟩ => rfl
  | ⟨1, _⟩ => rfl
  | ⟨2, _⟩ => rfl
theorem ix_v97 (b : Fin 16) (n : Fin 262144) : idx_main_v97 (ix3 b n (0 : Fin 1)) = ix3 b n (1 : Fin 2) := by
  funext a
  match a with
  | ⟨0, _⟩ => rfl
  | ⟨1, _⟩ => rfl
  | ⟨2, _⟩ => rfl
theorem ix_v111 (b : Fin 16) (n : Fin 262144) : idx_main_v111 (ix3 b n (0 : Fin 1)) = ix3 b n (0 : Fin 2) := by
  funext a
  match a with
  | ⟨0, _⟩ => rfl
  | ⟨1, _⟩ => rfl
  | ⟨2, _⟩ => rfl
theorem ix_v113 (b : Fin 16) (n : Fin 262144) : idx_main_v113 (ix3 b n (0 : Fin 1)) = ix3 b n (1 : Fin 2) := by
  funext a
  match a with
  | ⟨0, _⟩ => rfl
  | ⟨1, _⟩ => rfl
  | ⟨2, _⟩ => rfl

/-! ## The concatenation of the four box columns, read at each column -/

theorem box_concat0 {α : Type} (v0 v1 v2 v3 : S16x262144x1.Idx → α)
    (h : Shape.Concatenates (List.map (·.1) ([⟨S16x262144x1, v0⟩, ⟨S16x262144x1, v1⟩, ⟨S16x262144x1, v2⟩, ⟨S16x262144x1, v3⟩] : List ((s : Shape) × (s.Idx → α)))) S16x262144x4 2)
    (b : Fin 16) (n : Fin 262144) :
    concatenate S16x262144x4 2 [⟨S16x262144x1, v0⟩, ⟨S16x262144x1, v1⟩, ⟨S16x262144x1, v2⟩, ⟨S16x262144x1, v3⟩] h (ix3 b n (0 : Fin 4))
      = v0 (ix3 b n (0 : Fin 1)) :=
  concatenate_apply_piece 2 _ h _ 0 (by show 0 < 4; omega) S16x262144x1 v0 rfl rfl 0 rfl (ix3 b n (0 : Fin 1))
    (fun bb hb => match bb with
      | ⟨0, _⟩ => rfl
      | ⟨1, _⟩ => rfl
      | ⟨2, _⟩ => absurd rfl hb)
    rfl
theorem box_concat1 {α : Type} (v0 v1 v2 v3 : S16x262144x1.Idx → α)
    (h : Shape.Concatenates (List.map (·.1) ([⟨S16x262144x1, v0⟩, ⟨S16x262144x1, v1⟩, ⟨S16x262144x1, v2⟩, ⟨S16x262144x1, v3⟩] : List ((s : Shape) × (s.Idx → α)))) S16x262144x4 2)
    (b : Fin 16) (n : Fin 262144) :
    concatenate S16x262144x4 2 [⟨S16x262144x1, v0⟩, ⟨S16x262144x1, v1⟩, ⟨S16x262144x1, v2⟩, ⟨S16x262144x1, v3⟩] h (ix3 b n (1 : Fin 4))
      = v1 (ix3 b n (0 : Fin 1)) :=
  concatenate_apply_piece 2 _ h _ 1 (by show 1 < 4; omega) S16x262144x1 v1 rfl rfl 1 rfl (ix3 b n (0 : Fin 1))
    (fun bb hb => match bb with
      | ⟨0, _⟩ => rfl
      | ⟨1, _⟩ => rfl
      | ⟨2, _⟩ => absurd rfl hb)
    rfl
theorem box_concat2 {α : Type} (v0 v1 v2 v3 : S16x262144x1.Idx → α)
    (h : Shape.Concatenates (List.map (·.1) ([⟨S16x262144x1, v0⟩, ⟨S16x262144x1, v1⟩, ⟨S16x262144x1, v2⟩, ⟨S16x262144x1, v3⟩] : List ((s : Shape) × (s.Idx → α)))) S16x262144x4 2)
    (b : Fin 16) (n : Fin 262144) :
    concatenate S16x262144x4 2 [⟨S16x262144x1, v0⟩, ⟨S16x262144x1, v1⟩, ⟨S16x262144x1, v2⟩, ⟨S16x262144x1, v3⟩] h (ix3 b n (2 : Fin 4))
      = v2 (ix3 b n (0 : Fin 1)) :=
  concatenate_apply_piece 2 _ h _ 2 (by show 2 < 4; omega) S16x262144x1 v2 rfl rfl 2 rfl (ix3 b n (0 : Fin 1))
    (fun bb hb => match bb with
      | ⟨0, _⟩ => rfl
      | ⟨1, _⟩ => rfl
      | ⟨2, _⟩ => absurd rfl hb)
    rfl
theorem box_concat3 {α : Type} (v0 v1 v2 v3 : S16x262144x1.Idx → α)
    (h : Shape.Concatenates (List.map (·.1) ([⟨S16x262144x1, v0⟩, ⟨S16x262144x1, v1⟩, ⟨S16x262144x1, v2⟩, ⟨S16x262144x1, v3⟩] : List ((s : Shape) × (s.Idx → α)))) S16x262144x4 2)
    (b : Fin 16) (n : Fin 262144) :
    concatenate S16x262144x4 2 [⟨S16x262144x1, v0⟩, ⟨S16x262144x1, v1⟩, ⟨S16x262144x1, v2⟩, ⟨S16x262144x1, v3⟩] h (ix3 b n (3 : Fin 4))
      = v3 (ix3 b n (0 : Fin 1)) :=
  concatenate_apply_piece 2 _ h _ 3 (by show 3 < 4; omega) S16x262144x1 v3 rfl rfl 3 rfl (ix3 b n (0 : Fin 1))
    (fun bb hb => match bb with
      | ⟨0, _⟩ => rfl
      | ⟨1, _⟩ => rfl
      | ⟨2, _⟩ => absurd rfl hb)
    rfl

theorem v64_0 (x0 : (⟨S16x262144x4, .f32⟩ : BufTy).Contents (Elt Ideal)) (x2 : (⟨S262144x4, .f32⟩ : BufTy).Contents (Elt Ideal))
    (b : Fin 16) (n : Fin 262144) : val_main_v64 (F := Ideal) x0 x2 (ix3 b n (0 : Fin 4)) = val_main_v60 (F := Ideal) x0 x2 (ix3 b n (0 : Fin 1)) :=
  box_concat0 _ _ _ _ _ b n
theorem v64_1 (x0 : (⟨S16x262144x4, .f32⟩ : BufTy).Contents (Elt Ideal)) (x2 : (⟨S262144x4, .f32⟩ : BufTy).Contents (Elt Ideal))
    (b : Fin 16) (n : Fin 262144) : val_main_v64 (F := Ideal) x0 x2 (ix3 b n (1 : Fin 4)) = val_main_v61 (F := Ideal) x0 x2 (ix3 b n (0 : Fin 1)) :=
  box_concat1 _ _ _ _ _ b n
theorem v64_2 (x0 : (⟨S16x262144x4, .f32⟩ : BufTy).Contents (Elt Ideal)) (x2 : (⟨S262144x4, .f32⟩ : BufTy).Contents (Elt Ideal))
    (b : Fin 16) (n : Fin 262144) : val_main_v64 (F := Ideal) x0 x2 (ix3 b n (2 : Fin 4)) = val_main_v62 (F := Ideal) x0 x2 (ix3 b n (0 : Fin 1)) :=
  box_concat2 _ _ _ _ _ b n
theorem v64_3 (x0 : (⟨S16x262144x4, .f32⟩ : BufTy).Contents (Elt Ideal)) (x2 : (⟨S262144x4, .f32⟩ : BufTy).Contents (Elt Ideal))
    (b : Fin 16) (n : Fin 262144) : val_main_v64 (F := Ideal) x0 x2 (ix3 b n (3 : Fin 4)) = val_main_v63 (F := Ideal) x0 x2 (ix3 b n (0 : Fin 1)) :=
  box_concat3 _ _ _ _ _ b n

/-! ## One (batch row, anchor) pair -/

/-- The reference clamps at zero as `max 0 x`; the specification writes `max x 0`. -/
theorem clip_comm (x : EReal) :
    FloatOps.maximumf (F := Ideal) (φ := .f32) (FloatOps.ofBits .f32 0x00000000#32) x = max x zero := max_comm _ _

/-- The reference's masked loss term at `(b, n)` is the specification's. -/
theorem v122_at (x0 x1 : (⟨S16x262144x4, .f32⟩ : BufTy).Contents (Elt Ideal)) (x2 : (⟨S262144x4, .f32⟩ : BufTy).Contents (Elt Ideal))
    (x3 : (⟨S16x262144, .i1⟩ : BufTy).Contents (Elt Ideal)) (b : Fin 16) (n : Fin 262144) :
    val_main_v122 (F := Ideal) x0 x1 x2 x3 (ix2 b n) = lossAt x0 x1 x2 (val_main_v119 (F := Ideal) x3) b n := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_cst_apply, val_main_v12_apply, val_main_v13_apply, val_main_v14_apply, val_main_v15_apply, val_main_v16_apply, val_main_cst_0_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_cst_1_apply, val_main_v48_apply, val_main_v49_apply, val_main_v50_apply, val_main_cst_2_apply, val_main_v51_apply, val_main_v52_apply, val_main_v53_apply, val_main_cst_3_apply, val_main_v54_apply, val_main_v55_apply, val_main_v56_apply, val_main_cst_4_apply, val_main_v57_apply, val_main_v58_apply, val_main_v59_apply, val_main_v60_apply, val_main_v61_apply, val_main_v62_apply, val_main_v63_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_v85_apply, val_main_v86_apply, val_main_v87_apply, val_main_v88_apply, val_main_v89_apply, val_main_v90_apply, val_main_v91_apply, val_main_v92_apply, val_main_v93_apply, val_main_cst_5_apply, val_main_call0_v0_apply, val_main_call0_v1_apply, val_main_v94_apply, val_main_v95_apply, val_main_v96_apply, val_main_v97_apply, val_main_v98_apply, val_main_v99_apply, val_main_v100_apply, val_main_v101_apply, val_main_v102_apply, val_main_v103_apply, val_main_v104_apply, val_main_v105_apply, val_main_v106_apply, val_main_v107_apply, val_main_v108_apply, val_main_v109_apply, val_main_cst_6_apply, val_main_call1_v0_apply, val_main_call1_v1_apply, val_main_v110_apply, val_main_v111_apply, val_main_v112_apply, val_main_v113_apply, val_main_v114_apply, val_main_v115_apply, val_main_v116_apply, val_main_v117_apply, val_main_v118_apply, val_main_cst_7_apply, val_main_v120_apply, val_main_v121_apply, val_main_v122_apply,
    ix_v0, ix_v2, ix_v5, ix_v7, ix_v10, ix_v15, ix_v1, ix_v3, ix_v6, ix_v8, ix_v11, ix_v16, ix_v20, ix_v22, ix_v24, ix_v26, ix_v65, ix_v67, ix_v70, ix_v72, ix_v76, ix_v78, ix_v81, ix_v83, ix_v21, ix_v23, ix_v25, ix_v27, ix_v66, ix_v68, ix_v71, ix_v73, ix_v77, ix_v79, ix_v82, ix_v84, ix_v96, ix_v98, ix_v112, ix_v114, ix_v28, ix_v31, ix_v34, ix_v37, ix_v41, ix_v45, ix_v29, ix_v32, ix_v35, ix_v38, ix_v42, ix_v46, ix_v60, ix_v61, ix_v62, ix_v63, ix_v87_0, ix_v87_1, ix_v88_0, ix_v88_1, ix_v90_0, ix_v90_1, ix_v91_0, ix_v91_1, ix_v103_0, ix_v103_1, ix_v104_0, ix_v104_1, ix_v106_0, ix_v106_1, ix_v107_0, ix_v107_1, ix_v95, ix_v97, ix_v111, ix_v113,
    v64_0, v64_1, v64_2, v64_3, clip_comm]
  rfl

/-! ## The result -/

/-- The reference's result, at its one index, is the specification of the argument arrays (the mask converted to
    numbers). -/
theorem result_at (x0 x1 : (⟨S16x262144x4, .f32⟩ : BufTy).Contents (Elt Ideal)) (x2 : (⟨S262144x4, .f32⟩ : BufTy).Contents (Elt Ideal))
    (x3 : (⟨S16x262144, .i1⟩ : BufTy).Contents (Elt Ideal)) (i : S_.Idx) :
    val_main_v126 (F := Ideal) x0 x1 x2 x3 i = result x0 x1 x2 (val_main_v119 (F := Ideal) x3) := by
  rw [val_main_v126_apply, val_main_v125_apply, val_main_v123_apply, val_main_v124_apply, sum_idx2, sum_idx2]
  simp only [v122_at]
  show Ideal.div (Ideal.ofBits .f32 0x00000000#32 + _) (max (Ideal.ofBits .f32 0x00000000#32 + _) (Ideal.ofBits .f32 0x3F800000#32)) = _
  rw [Ideal.ofBits_zero_f32, zero_add, zero_add]
  rfl

end Cert.ReferenceIdeal.RefValue

end
-- ==== Proof.lean ====
/-
  The certificate: the pipelined generalized-IoU loss kernel against its plain reference, on the extended reals.

  Both programs compute, for every batch row `b` and anchor `n`, the loss term `(1 - giou) * mask` of the box decoded
  from the anchor and the deltas against the target box, and return the sum of the terms divided by
  `max (sum of the mask) 1`. The kernel sums tile by tile (8 rows by 16384 anchors) into one accumulator block per
  batch group and the host adds the two groups; the reference sums over the whole `[16, 262144]` array at once. A
  finite sum on the extended reals may be regrouped freely, the two clamps at zero differ only in the order of
  `max`'s arguments, and every other operation is the same on both sides, so the results are equal and the
  precondition is never used. The ideal pass rewrote nothing, so `preserves` is `True`.
-/
import proofs.«123826_j7413113553025_2_alg».proof.Defs
import proofs.«123826_j7413113553025_2_alg».proof.Proof.Gen.Kernel
import proofs.«123826_j7413113553025_2_alg».proof.Proof.Gen.Kernel.Frame
import proofs.«123826_j7413113553025_2_alg».proof.Proof.Gen.KernelIdeal
import proofs.«123826_j7413113553025_2_alg».proof.Proof.Gen.KernelIdeal.Frame
import proofs.«123826_j7413113553025_2_alg».proof.Proof.Gen.ReferenceIdeal
import proofs.«123826_j7413113553025_2_alg».proof.Proof.Gen.Pre_finite_inputs
import proofs.«123826_j7413113553025_2_alg».proof.Proof.Gen.ReferenceIdeal.Run
import proofs.«123826_j7413113553025_2_alg».proof.Proof.Gen.ReferenceIdeal.Read
import proofs.«123826_j7413113553025_2_alg».proof.Proof.KernelValue
import proofs.«123826_j7413113553025_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification of the argument arrays in the result buffer; the arguments agree. -/
theorem algebraic : Cert.algebraic_KernelIdeal_ReferenceIdeal := by
  intro m ρ m' ρ' _ hagree
  refine ⟨fun c => fun _ => Cert.KernelIdeal.Run.resultOf m c, Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v126_eq]
  funext i
  rw [Cert.ReferenceIdeal.RefValue.result_at, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
